-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S2000x128 : Shape := ⟨2, ![2000, 128]⟩
abbrev S2000x1 : Shape := ⟨2, ![2000, 1]⟩
abbrev S600000x128 : Shape := ⟨2, ![600000, 128]⟩
abbrev S1x128 : Shape := ⟨2, ![1, 128]⟩
abbrev S1x10 : Shape := ⟨2, ![1, 10]⟩
abbrev S50000x10 : Shape := ⟨2, ![50000, 10]⟩
abbrev S2000x10 : Shape := ⟨2, ![2000, 10]⟩

abbrev nBuf : Space → Nat
  | .hbm => 95
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .i32⟩
  | .hbm, ⟨65, _⟩ => ⟨S600000, .i32⟩
  | .hbm, ⟨66, _⟩ => ⟨S600000, .i1⟩
  | .hbm, ⟨67, _⟩ => ⟨S_, .i32⟩
  | .hbm, ⟨68, _⟩ => ⟨S600000, .i32⟩
  | .hbm, ⟨69, _⟩ => ⟨S600000, .i32⟩
  | .hbm, ⟨70, _⟩ => ⟨S600000, .i32⟩
  | .hbm, ⟨71, _⟩ => ⟨S600000x1, .i32⟩
  | .hbm, ⟨72, _⟩ => ⟨S600000x128, .f32⟩
  | .hbm, ⟨73, _⟩ => ⟨S_, .f32⟩
  | .hbm, ⟨74, _⟩ => ⟨S50000x128, .f32⟩
  | .hbm, ⟨75, _⟩ => ⟨S600000x1, .i32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S600000, .i32⟩
  | .hbm, ⟨82, _⟩ => ⟨S600000, .i1⟩
  | .hbm, ⟨83, _⟩ => ⟨S_, .i32⟩
  | .hbm, ⟨84, _⟩ => ⟨S600000, .i32⟩
  | .hbm, ⟨85, _⟩ => ⟨S600000, .i32⟩
  | .hbm, ⟨86, _⟩ => ⟨S600000, .i32⟩
  | .hbm, ⟨87, _⟩ => ⟨S600000x1, .i32⟩
  | .hbm, ⟨88, _⟩ => ⟨S600000x128, .f32⟩
  | .hbm, ⟨89, _⟩ => ⟨S_, .f32⟩
  | .hbm, ⟨90, _⟩ => ⟨S50000x128, .f32⟩
  | .hbm, ⟨91, _⟩ => ⟨S600000x1, .i32⟩
  | .hbm, ⟨92, _⟩ => ⟨S50000x128, .f32⟩
  | .hbm, ⟨93, _⟩ => ⟨S1x10, .f32⟩
  | .hbm, ⟨94, _⟩ => ⟨S50000x10, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S2000x1, .f32⟩
  | .local _ .vmem, ⟨11, _⟩ => ⟨S2000x1, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | .local _ .vmem, ⟨22, _⟩ => ⟨S2000x1, .f32⟩
  | .local _ .vmem, ⟨23, _⟩ => ⟨S2000x1, .f32⟩
  | .local _ .vmem, ⟨24, _⟩ => ⟨S128x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x1, .f32⟩
  | .local _ .vmem, ⟨33, _⟩ => ⟨S2000x1, .f32⟩
  | .local _ .vmem, ⟨34, _⟩ => ⟨S2000x1, .f32⟩
  | .local _ .vmem, ⟨35, _⟩ => ⟨S2000x1, .f32⟩
  | .local _ .vmem, ⟨36, _⟩ => ⟨S128x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x1, .f32⟩
  | .local _ .vmem, ⟨45, _⟩ => ⟨S2000x1, .f32⟩
  | .local _ .vmem, ⟨46, _⟩ => ⟨S128x10, .f32⟩
  | .local _ .vmem, ⟨47, _⟩ => ⟨S1x10, .f32⟩
  | .local _ .vmem, ⟨48, _⟩ => ⟨S2000x10, .f32⟩
  | .local _ .vmem, ⟨49, _⟩ => ⟨S2000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27_0 : Ref sig .tc := ⟨.hbm, 46, rfl⟩
abbrev main_v27_1 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_c_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39_0 : Ref sig .tc := ⟨.hbm, 62, rfl⟩
abbrev main_v39_1 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51_0 : Ref sig .tc := ⟨.hbm, 78, rfl⟩
abbrev main_v51_1 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_c_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg4_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem4_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x10 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2000x10 : S1x10.Broadcasts S2000x10
  inb_S2000x10_S2000x10_0_0 : ∀ a, (![0, 0] : Fin 2 → Nat) a + S2000x10.size a ≤ S2000x10.size a
  h_S2000x10 : 0 < S2000x10.numel
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x10_S2000x10_1_0_0_1_n_n_wf : DotDims.WF S2000x128 S128x10 S2000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x10.size a ≤ S128x10.size a
  hwx4_2 : ∀ i : grid4.Coords, EltTy.bits .f32 = 32 ∨ (Rect.block (s := S128x10) S128x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x10.size a ≤ S1x10.size a
  hwx4_3 : ∀ i : grid4.Coords, EltTy.bits .f32 = 32 ∨ (Rect.block (s := S1x10) S1x10.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x10.size a ≤ S50000x10.size a
  hwx4_4 : ∀ i : grid4.Coords, EltTy.bits .f32 = 32 ∨ (Rect.block (s := S50000x10) S2000x10.size (cc4_transform_4 i) (hinb4_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x10_S2000x10_1_0_0_1_n_n : DotDims S2000x128 S128x10 S2000x10 where
  lhsContracting := [1]
  rhsContracting := [0]
  lhsNonContracting := [0]
  rhsNonContracting := [1]
  lhsBatch := []
  rhsBatch := []
  wf := dot_S2000x128_S128x10_S2000x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v39_1) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v49) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v50) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51_0) S2000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v51_1) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v61) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S1x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v63) S2000x10.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S50000x10 : Shape := ⟨2, ![50000, 10]⟩
abbrev S1x10 : Shape := ⟨2, ![1, 10]⟩

abbrev nBuf : Space → Nat
  | .hbm => 124
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S_, .f32⟩
  | .hbm, ⟨12, _⟩ => ⟨S600000, .f32⟩
  | .hbm, ⟨13, _⟩ => ⟨S_, .f32⟩
  | .hbm, ⟨14, _⟩ => ⟨S50000, .f32⟩
  | .hbm, ⟨15, _⟩ => ⟨S600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S600000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S600000, .i32⟩
  | .hbm, ⟨35, _⟩ => ⟨S600000, .i1⟩
  | .hbm, ⟨36, _⟩ => ⟨S_, .i32⟩
  | .hbm, ⟨37, _⟩ => ⟨S600000, .i32⟩
  | .hbm, ⟨38, _⟩ => ⟨S600000, .i32⟩
  | .hbm, ⟨39, _⟩ => ⟨S600000, .i32⟩
  | .hbm, ⟨40, _⟩ => ⟨S600000x1, .i32⟩
  | .hbm, ⟨41, _⟩ => ⟨S600000x128, .f32⟩
  | .hbm, ⟨42, _⟩ => ⟨S_, .f32⟩
  | .hbm, ⟨43, _⟩ => ⟨S50000x128, .f32⟩
  | .hbm, ⟨44, _⟩ => ⟨S600000x1, .i32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S600000, .i32⟩
  | .hbm, ⟨59, _⟩ => ⟨S600000, .i1⟩
  | .hbm, ⟨60, _⟩ => ⟨S_, .i32⟩
  | .hbm, ⟨61, _⟩ => ⟨S600000, .i32⟩
  | .hbm, ⟨62, _⟩ => ⟨S600000, .i32⟩
  | .hbm, ⟨63, _⟩ => ⟨S600000, .i32⟩
  | .hbm, ⟨64, _⟩ => ⟨S600000x1, .i32⟩
  | .hbm, ⟨65, _⟩ => ⟨S600000x128, .f32⟩
  | .hbm, ⟨66, _⟩ => ⟨S_, .f32⟩
  | .hbm, ⟨67, _⟩ => ⟨S50000x128, .f32⟩
  | .hbm, ⟨68, _⟩ => ⟨S600000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S_, .i32⟩
  | .hbm, ⟨82, _⟩ => ⟨S600000, .i32⟩
  | .hbm, ⟨83, _⟩ => ⟨S600000, .i1⟩
  | .hbm, ⟨84, _⟩ => ⟨S_, .i32⟩
  | .hbm, ⟨85, _⟩ => ⟨S600000, .i32⟩
  | .hbm, ⟨86, _⟩ => ⟨S600000, .i32⟩
  | .hbm, ⟨87, _⟩ => ⟨S600000, .i32⟩
  | .hbm, ⟨88, _⟩ => ⟨S600000x1, .i32⟩
  | .hbm, ⟨89, _⟩ => ⟨S600000x128, .f32⟩
  | .hbm, ⟨90, _⟩ => ⟨S_, .f32⟩
  | .hbm, ⟨91, _⟩ => ⟨S50000x128, .f32⟩
  | .hbm, ⟨92, _⟩ => ⟨S600000x1, .i32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S_, .i32⟩
  | .hbm, ⟨106, _⟩ => ⟨S600000, .i32⟩
  | .hbm, ⟨107, _⟩ => ⟨S600000, .i1⟩
  | .hbm, ⟨108, _⟩ => ⟨S_, .i32⟩
  | .hbm, ⟨109, _⟩ => ⟨S600000, .i32⟩
  | .hbm, ⟨110, _⟩ => ⟨S600000, .i32⟩
  | .hbm, ⟨111, _⟩ => ⟨S600000, .i32⟩
  | .hbm, ⟨112, _⟩ => ⟨S600000x1, .i32⟩
  | .hbm, ⟨113, _⟩ => ⟨S600000x128, .f32⟩
  | .hbm, ⟨114, _⟩ => ⟨S_, .f32⟩
  | .hbm, ⟨115, _⟩ => ⟨S50000x128, .f32⟩
  | .hbm, ⟨116, _⟩ => ⟨S600000x1, .i32⟩
  | .hbm, ⟨117, _⟩ => ⟨S50000x128, .f32⟩
  | .hbm, ⟨118, _⟩ => ⟨S50000x128, .f32⟩
  | .hbm, ⟨119, _⟩ => ⟨S50000x128, .f32⟩
  | .hbm, ⟨120, _⟩ => ⟨S50000x10, .f32⟩
  | .hbm, ⟨121, _⟩ => ⟨S1x10, .f32⟩
  | .hbm, ⟨122, _⟩ => ⟨S50000x10, .f32⟩
  | .hbm, ⟨123, _⟩ => ⟨S50000x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_cst : Ref sig .tc := ⟨.hbm, 76, rfl⟩
abbrev main_call1_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_9 : Ref sig .tc := ⟨.hbm, 81, rfl⟩
abbrev main_v55 : Ref sig .tc := ⟨.hbm, 82, rfl⟩
abbrev main_v56 : Ref sig .tc := ⟨.hbm, 83, rfl⟩
abbrev main_c_10 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_call2_cst : Ref sig .tc := ⟨.hbm, 100, rfl⟩
abbrev main_call2_v0 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_12 : Ref sig .tc := ⟨.hbm, 105, rfl⟩
abbrev main_v74 : Ref sig .tc := ⟨.hbm, 106, rfl⟩
abbrev main_v75 : Ref sig .tc := ⟨.hbm, 107, rfl⟩
abbrev main_c_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x10_S50000x10_1_0_0_1_n_n_wf : DotDims.WF S50000x128 S128x10 S50000x10 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf

class Facts : Prop extends Facts₀ where

variable [Facts]
-- ==== Proof.KernelRun.lean ====
/-
  The kernel program's run with its result named.

  Every weakly fair execution of the program terminates without a fault; in the final state the result buffer
  holds what the fold of the program's segments leaves there (the last region's write-backs), and the argument
  arrays are as launched. This is the statement of the frame with the result buffer read as well: the last thread
  state holds every unscoped buffer at the last boundary's contents, the result buffer among them.
-/
import proofs.«116706_j21328807592611_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v63) = W10 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v63 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.Gcn.KernelRun

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibLayerProduct.lean ====
/-
  One layer of the network, read at an entry, over the extended reals.

  A layer multiplies a matrix of node features by a weight matrix. From the second layer on, the features are first
  shifted by a bias row and clamped below at zero. Entry (r, q) of the result is therefore a sum over the contracted
  axis k: of a (r, k) · w (k, q) for the first layer, and of max (a (r, k) + b (0, k)) 0 · w (k, q) for the others.
  Rounding the two factors to a narrower float format changes nothing over the extended reals, and a product
  accumulated into zero is the plain sum, so the tiled kernel body's stored value, read at an entry of its tile, is
  that sum over the tile's own rows.
-/
import Idealize.ShloMosaic.PureOps.Ideal.Laws
import Idealize.ShloMosaic.Lib.ValueIdx
import Idealize.ShloMosaic.Lib.ValueLayout
import Idealize.ShloMosaic.Lib.Pipeline.Value
import proofs.«116706_j21328807592611_1_alg».proof.Proof.LibMatmul

noncomputable section

namespace Cert.Layer

open Idealize.ShloMosaic Idealize.ShloMosaic.ValueIdx

/-- The plain product: entry (r, q) is the sum over k of a (r, k) · w (k, q). -/
def prod {A K B : ℕ} (a : FVec Ideal (⟨2, ![A, K]⟩ : Shape) .f32) (w : FVec Ideal (⟨2, ![K, B]⟩ : Shape) .f32) :
    FVec Ideal (⟨2, ![A, B]⟩ : Shape) .f32 :=
  fun i => ∑ k : Fin K, a (ix2 (i 0) k) * w (ix2 k (i 1))

/-- The product after the bias row is added and negatives are clamped to zero:
    entry (r, q) is the sum over k of max (a (r, k) + b (0, k)) 0 · w (k, q). -/
def biasReluProd {A K B : ℕ} (a : FVec Ideal (⟨2, ![A, K]⟩ : Shape) .f32) (b : FVec Ideal (⟨2, ![1, K]⟩ : Shape) .f32)
    (w : FVec Ideal (⟨2, ![K, B]⟩ : Shape) .f32) : FVec Ideal (⟨2, ![A, B]⟩ : Shape) .f32 :=
  fun i => ∑ k : Fin K, max (a (ix2 (i 0) k) + b (ix2 (0 : Fin 1) k)) 0 * w (ix2 k (i 1))

/-- Two entries of the plain product agree when the row and the column they sum over agree, term by term. -/
theorem prod_congr {A A' K B B' : ℕ}
    (a : FVec Ideal (⟨2, ![A, K]⟩ : Shape) .f32) (w : FVec Ideal (⟨2, ![K, B]⟩ : Shape) .f32)
    (a' : FVec Ideal (⟨2, ![A', K]⟩ : Shape) .f32) (w' : FVec Ideal (⟨2, ![K, B']⟩ : Shape) .f32)
    (r : Fin A) (q : Fin B) (r' : Fin A') (q' : Fin B')
    (ha : ∀ k : Fin K, a (ix2 r k) = a' (ix2 r' k)) (hw : ∀ k : Fin K, w (ix2 k q) = w' (ix2 k q')) :
    prod a w (ix2 r q) = prod a' w' (ix2 r' q') := by
  show (∑ k : Fin K, a (ix2 r k) * w (ix2 k q)) = ∑ k : Fin K, a' (ix2 r' k) * w' (ix2 k q')
  exact Finset.sum_congr rfl fun k _ => by rw [ha k, hw k]

/-- Two entries of the clamped product agree when the row, the bias row and the column they sum over agree. -/
theorem biasReluProd_congr {A A' K B B' : ℕ}
    (a : FVec Ideal (⟨2, ![A, K]⟩ : Shape) .f32) (b : FVec Ideal (⟨2, ![1, K]⟩ : Shape) .f32) (w : FVec Ideal (⟨2, ![K, B]⟩ : Shape) .f32)
    (a' : FVec Ideal (⟨2, ![A', K]⟩ : Shape) .f32) (b' : FVec Ideal (⟨2, ![1, K]⟩ : Shape) .f32) (w' : FVec Ideal (⟨2, ![K, B']⟩ : Shape) .f32)
    (r : Fin A) (q : Fin B) (r' : Fin A') (q' : Fin B')
    (ha : ∀ k : Fin K, a (ix2 r k) = a' (ix2 r' k)) (hb : ∀ k : Fin K, b (ix2 (0 : Fin 1) k) = b' (ix2 (0 : Fin 1) k))
    (hw : ∀ k : Fin K, w (ix2 k q) = w' (ix2 k q')) :
    biasReluProd a b w (ix2 r q) = biasReluProd a' b' w' (ix2 r' q') := by
  show (∑ k : Fin K, max (a (ix2 r k) + b (ix2 (0 : Fin 1) k)) 0 * w (ix2 k q))
    = ∑ k : Fin K, max (a' (ix2 r' k) + b' (ix2 (0 : Fin 1) k)) 0 * w' (ix2 k q')
  exact Finset.sum_congr rfl fun k _ => by rw [ha k, hb k, hw k]

/-- The two factors rounded to a narrower format and multiplied into a zero accumulator: the plain product. -/
theorem matmul_trunc_apply {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (x0 : FVec Ideal (⟨2, ![A, K]⟩ : Shape) .f32) (x2 : FVec Ideal (⟨2, ![K, B]⟩ : Shape) .f32) (p : Fin A) (q : Fin B) :
    FloatOps.matmul d none (truncf .bf16 x0 h16) (truncf .bf16 x2 h16)
        (constant (F := Ideal) (⟨2, ![A, B]⟩ : Shape) .f32 0x00000000#32) (ix2 p q)
      = prod x0 x2 (ix2 p q) :=
  (Cert.LibMatmul.matmul_zero_ix2 d hr hs hl0 hl1 hr0 hr1 none _ _ p q).trans
    (Finset.sum_congr rfl fun _ _ => rfl)

/-- The same with the left factor first shifted by a bias row spread over all rows and clamped below at zero. -/
theorem biasRelu_matmul_apply {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (hbc : (⟨2, ![1, K]⟩ : Shape).Broadcasts ⟨2, ![A, K]⟩)
    (x0 : FVec Ideal (⟨2, ![A, K]⟩ : Shape) .f32) (x1 : FVec Ideal (⟨2, ![1, K]⟩ : Shape) .f32)
    (x2 : FVec Ideal (⟨2, ![K, B]⟩ : Shape) .f32) (p : Fin A) (q : Fin B) :
    FloatOps.matmul d none
        (truncf .bf16 (maximumf (addf x0 (broadcastTo (⟨2, ![A, K]⟩ : Shape) x1 hbc))
          (broadcast (⟨2, ![A, K]⟩ : Shape) (Scalar.ofBits (F := Ideal) .f32 0x00000000#32))) h16)
        (truncf .bf16 x2 h16)
        (constant (F := Ideal) (⟨2, ![A, B]⟩ : Shape) .f32 0x00000000#32) (ix2 p q)
      = biasReluProd x0 x1 x2 (ix2 p q) := by
  refine (Cert.LibMatmul.matmul_zero_ix2 d hr hs hl0 hl1 hr0 hr1 none _ _ p q).trans ?_
  refine Finset.sum_congr rfl fun k _ => ?_
  show max (x0 (ix2 p k) + broadcastTo (⟨2, ![A, K]⟩ : Shape) x1 hbc (ix2 p k)) (Ideal.ofBits .f32 0x00000000#32) * x2 (ix2 k q)
    = max (x0 (ix2 p k) + x1 (ix2 (0 : Fin 1) k)) 0 * x2 (ix2 k q)
  rw [broadcastTo_1b_ab_apply, Ideal.ofBits_zero_f32]

end Cert.Layer

end
-- ==== Proof.LibKeepdims.lean ====
/-
  A reduction over the last axis kept as a unit axis, read at an index.

  A vector of `a` numbers viewed as an `a × 1` column holds, at (i, u), the vector's entry i, whatever the unit
  coordinate u; and an `a × 1` column spread over `b` columns holds, at (p, c), the column's entry (p, 0): every
  entry of row p is that row's one number. Together they read the common pattern "sum each row, keep the axis,
  combine with the matrix again" at an entry (p, c) as the row sum of row p.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Spec.lean ====
/-
  The network, layer by layer, over the extended reals.

  A graph-convolution layer takes the aggregated node features `a` (one row per node), scales row r by the node's
  in-degree factor s (r), multiplies by the weight matrix w and adds the bias b to every row:
      linear a s w b (r, q) = (sum over k of (a (r, k) * s (r)) * w (k, q)) + b (q).
  A hidden layer then clamps below at zero and scales row r by the node's out-degree factor t (r), which is what
  the next aggregation gathers:
      hidden a s t w b (r, q) = max (linear a s w b (r, q)) 0 * t (r).
  The whole network is three hidden layers and a last linear one, each fed by an aggregation `agg` of the previous
  layer's rows (a gather along the edges followed by a scatter-add; it enters only as a function of arrays).
-/
import Idealize.ShloMosaic.PureOps.Ideal.Laws
import Idealize.ShloMosaic.Lib.ValueIdx
import proofs.«116706_j21328807592611_1_alg».proof.Proof.LibLayerProduct

noncomputable section

namespace Cert.Gcn

open Idealize.ShloMosaic Idealize.ShloMosaic.ValueIdx

/-- Row r of `x` multiplied by the factor `s (r)` of a one-column array. -/
def scaleRows {A B : ℕ} (x : FVec Ideal (⟨2, ![A, B]⟩ : Shape) .f32) (s : FVec Ideal (⟨2, ![A, 1]⟩ : Shape) .f32) :
    FVec Ideal (⟨2, ![A, B]⟩ : Shape) .f32 :=
  fun i => x i * s (ix2 (i 0) (0 : Fin 1))

/-- A vector laid out as a one-row array. -/
def rowOf {B : ℕ} (b : FVec Ideal (⟨1, ![B]⟩ : Shape) .f32) : FVec Ideal (⟨2, ![1, B]⟩ : Shape) .f32 :=
  fun i => b (ix1 (i 1))

/-- Scale the rows, multiply by the weights, add the bias row. -/
def linear {A K B : ℕ} (a : FVec Ideal (⟨2, ![A, K]⟩ : Shape) .f32) (s : FVec Ideal (⟨2, ![A, 1]⟩ : Shape) .f32)
    (w : FVec Ideal (⟨2, ![K, B]⟩ : Shape) .f32) (b : FVec Ideal (⟨2, ![1, B]⟩ : Shape) .f32) :
    FVec Ideal (⟨2, ![A, B]⟩ : Shape) .f32 :=
  fun i => Cert.Layer.prod (scaleRows a s) w i + b (ix2 (0 : Fin 1) (i 1))

/-- A hidden layer's output as the next aggregation reads it: clamped below at zero, rows scaled by `t`. -/
def hidden {A K B : ℕ} (a : FVec Ideal (⟨2, ![A, K]⟩ : Shape) .f32) (s t : FVec Ideal (⟨2, ![A, 1]⟩ : Shape) .f32)
    (w : FVec Ideal (⟨2, ![K, B]⟩ : Shape) .f32) (b : FVec Ideal (⟨2, ![1, B]⟩ : Shape) .f32) :
    FVec Ideal (⟨2, ![A, B]⟩ : Shape) .f32 :=
  fun i => max (linear a s w b i) 0 * t (ix2 (i 0) (0 : Fin 1))

/-- The network: the input rows scaled by `t`, three hidden layers and a last linear layer, an aggregation before each. -/
def net {N D O : ℕ} (agg : FVec Ideal (⟨2, ![N, D]⟩ : Shape) .f32 → FVec Ideal (⟨2, ![N, D]⟩ : Shape) .f32)
    (s t : FVec Ideal (⟨2, ![N, 1]⟩ : Shape) .f32) (x : FVec Ideal (⟨2, ![N, D]⟩ : Shape) .f32)
    (w0 : FVec Ideal (⟨2, ![D, D]⟩ : Shape) .f32) (b0 : FVec Ideal (⟨2, ![1, D]⟩ : Shape) .f32)
    (w1 : FVec Ideal (⟨2, ![D, D]⟩ : Shape) .f32) (b1 : FVec Ideal (⟨2, ![1, D]⟩ : Shape) .f32)
    (w2 : FVec Ideal (⟨2, ![D, D]⟩ : Shape) .f32) (b2 : FVec Ideal (⟨2, ![1, D]⟩ : Shape) .f32)
    (w3 : FVec Ideal (⟨2, ![D, O]⟩ : Shape) .f32) (b3 : FVec Ideal (⟨2, ![1, O]⟩ : Shape) .f32) :
    FVec Ideal (⟨2, ![N, O]⟩ : Shape) .f32 :=
  linear (agg (hidden (agg (hidden (agg (hidden (agg (scaleRows x t)) s t w0 b0)) s t w1 b1)) s t w2 b2)) s w3 b3

/-- Two entries of row-scaled arrays agree when the entries and the rows' factors agree. -/
theorem scaleRows_congr {A A' B B' : ℕ}
    (x : FVec Ideal (⟨2, ![A, B]⟩ : Shape) .f32) (s : FVec Ideal (⟨2, ![A, 1]⟩ : Shape) .f32)
    (x' : FVec Ideal (⟨2, ![A', B']⟩ : Shape) .f32) (s' : FVec Ideal (⟨2, ![A', 1]⟩ : Shape) .f32)
    (r : Fin A) (q : Fin B) (r' : Fin A') (q' : Fin B')
    (hx : x (ix2 r q) = x' (ix2 r' q')) (hs : s (ix2 r (0 : Fin 1)) = s' (ix2 r' (0 : Fin 1))) :
    scaleRows x s (ix2 r q) = scaleRows x' s' (ix2 r' q') := by
  show x (ix2 r q) * s (ix2 r (0 : Fin 1)) = x' (ix2 r' q') * s' (ix2 r' (0 : Fin 1))
  rw [hx, hs]

/-- Two entries of a linear layer agree when the rows, the row factors, the weight columns and the bias entries
    they are computed from agree. -/
theorem linear_congr {A A' K B B' : ℕ}
    (a : FVec Ideal (⟨2, ![A, K]⟩ : Shape) .f32) (s : FVec Ideal (⟨2, ![A, 1]⟩ : Shape) .f32)
    (w : FVec Ideal (⟨2, ![K, B]⟩ : Shape) .f32) (b : FVec Ideal (⟨2, ![1, B]⟩ : Shape) .f32)
    (a' : FVec Ideal (⟨2, ![A', K]⟩ : Shape) .f32) (s' : FVec Ideal (⟨2, ![A', 1]⟩ : Shape) .f32)
    (w' : FVec Ideal (⟨2, ![K, B']⟩ : Shape) .f32) (b' : FVec Ideal (⟨2, ![1, B']⟩ : Shape) .f32)
    (r : Fin A) (q : Fin B) (r' : Fin A') (q' : Fin B')
    (ha : ∀ k : Fin K, a (ix2 r k) = a' (ix2 r' k)) (hs : s (ix2 r (0 : Fin 1)) = s' (ix2 r' (0 : Fin 1)))
    (hw : ∀ k : Fin K, w (ix2 k q) = w' (ix2 k q')) (hb : b (ix2 (0 : Fin 1) q) = b' (ix2 (0 : Fin 1) q')) :
    linear a s w b (ix2 r q) = linear a' s' w' b' (ix2 r' q') := by
  show Cert.Layer.prod (scaleRows a s) w (ix2 r q) + b (ix2 (0 : Fin 1) q)
    = Cert.Layer.prod (scaleRows a' s') w' (ix2 r' q') + b' (ix2 (0 : Fin 1) q')
  rw [hb]
  refine congrArg (· + _) (Cert.Layer.prod_congr _ _ _ _ r q r' q' (fun k => ?_) hw)
  show a (ix2 r k) * s (ix2 r (0 : Fin 1)) = a' (ix2 r' k) * s' (ix2 r' (0 : Fin 1))
  rw [ha k, hs]

/-- The same for a hidden layer, with the out-degree factors agreeing too. -/
theorem hidden_congr {A A' K B B' : ℕ}
    (a : FVec Ideal (⟨2, ![A, K]⟩ : Shape) .f32) (s t : FVec Ideal (⟨2, ![A, 1]⟩ : Shape) .f32)
    (w : FVec Ideal (⟨2, ![K, B]⟩ : Shape) .f32) (b : FVec Ideal (⟨2, ![1, B]⟩ : Shape) .f32)
    (a' : FVec Ideal (⟨2, ![A', K]⟩ : Shape) .f32) (s' t' : FVec Ideal (⟨2, ![A', 1]⟩ : Shape) .f32)
    (w' : FVec Ideal (⟨2, ![K, B']⟩ : Shape) .f32) (b' : FVec Ideal (⟨2, ![1, B']⟩ : Shape) .f32)
    (r : Fin A) (q : Fin B) (r' : Fin A') (q' : Fin B')
    (ha : ∀ k : Fin K, a (ix2 r k) = a' (ix2 r' k)) (hs : s (ix2 r (0 : Fin 1)) = s' (ix2 r' (0 : Fin 1)))
    (ht : t (ix2 r (0 : Fin 1)) = t' (ix2 r' (0 : Fin 1)))
    (hw : ∀ k : Fin K, w (ix2 k q) = w' (ix2 k q')) (hb : b (ix2 (0 : Fin 1) q) = b' (ix2 (0 : Fin 1) q')) :
    hidden a s t w b (ix2 r q) = hidden a' s' t' w' b' (ix2 r' q') := by
  show max (linear a s w b (ix2 r q)) 0 * t (ix2 r (0 : Fin 1))
    = max (linear a' s' w' b' (ix2 r' q')) 0 * t' (ix2 r' (0 : Fin 1))
  rw [linear_congr a s w b a' s' w' b' r q r' q' ha hs hw hb, ht]

end Cert.Gcn

end
-- ==== Proof.LibGraphConv.lean ====
/-
  One graph-convolution layer's tile, read at an entry, over the extended reals; generic in the extents.

  The tile body scales each row of its block of aggregated features by a one-column factor, rounds both factors of
  the product to a narrower float format (the identity over the extended reals), multiplies into a zero accumulator,
  adds a bias row to every row, and either stops there (the last layer) or clamps below at zero and scales each row
  by a second one-column factor (a hidden layer). Read at entry (p, q) of the tile these are `Cert.Gcn.linear` and
  `Cert.Gcn.hidden` of the tile's own operands. The first lemma is the plain row scaling.
-/
import Idealize.ShloMosaic.PureOps.Ideal.Laws
import Idealize.ShloMosaic.Lib.ValueIdx
import Idealize.ShloMosaic.Lib.ValueLayout
import Idealize.ShloMosaic.Lib.Pipeline.Value
import proofs.«116706_j21328807592611_1_alg».proof.Proof.LibLayerProduct
import proofs.«116706_j21328807592611_1_alg».proof.Proof.LibKeepdims
import proofs.«116706_j21328807592611_1_alg».proof.Proof.Spec

noncomputable section

namespace Cert.LibGraphConv

open Idealize.ShloMosaic Idealize.ShloMosaic.ValueIdx Cert.Gcn

/-- A block times a one-column factor spread over its columns: each row scaled by its own factor. -/
theorem scale_term {A B : ℕ}
    (hc : (⟨2, ![A, 1]⟩ : Shape).ShapeCasts ⟨2, ![A, 1]⟩) (hb : (⟨2, ![A, 1]⟩ : Shape).Broadcasts ⟨2, ![A, B]⟩)
    (x0 : FVec Ideal (⟨2, ![A, B]⟩ : Shape) .f32) (x1 : FVec Ideal (⟨2, ![A, 1]⟩ : Shape) .f32) (p : Fin A) (q : Fin B) :
    mulf x0 (broadcastTo (⟨2, ![A, B]⟩ : Shape) (shapeCast (⟨2, ![A, 1]⟩ : Shape) x1 hc) hb) (ix2 p q)
      = scaleRows x0 x1 (ix2 p q) := by
  show x0 (ix2 p q) * broadcastTo (⟨2, ![A, B]⟩ : Shape) (shapeCast (⟨2, ![A, 1]⟩ : Shape) x1 hc) hb (ix2 p q)
    = x0 (ix2 p q) * x1 (ix2 p (0 : Fin 1))
  rw [Cert.LibKeepdims.broadcastTo_a1_ab_apply, shapeCast_self]

/-- A vector reshaped to a one-row array is the one-row array of the vector. -/
theorem row_term {B : ℕ} (h : (⟨1, ![B]⟩ : Shape).ShapeCasts ⟨2, ![1, B]⟩) (b : FVec Ideal (⟨1, ![B]⟩ : Shape) .f32) :
    shapeCast (⟨2, ![1, B]⟩ : Shape) b h = rowOf b := by
  funext i
  obtain ⟨u, q, rfl⟩ : ∃ (u : Fin 1) (q : Fin B), i = ix2 u q := ⟨i 0, i 1, eq_ix2 i⟩
  exact shapeCast_a_1a_apply b h u q

/-- The last layer's tile: rows scaled, both factors rounded, multiplied into zero, the bias row added. -/
theorem linear_term {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (hc0 : (⟨2, ![A, K]⟩ : Shape).ShapeCasts ⟨2, ![A, K]⟩) (hc1 : (⟨2, ![A, 1]⟩ : Shape).ShapeCasts ⟨2, ![A, 1]⟩)
    (hb1 : (⟨2, ![A, 1]⟩ : Shape).Broadcasts ⟨2, ![A, K]⟩)
    (hc2 : (⟨2, ![1, B]⟩ : Shape).ShapeCasts ⟨2, ![1, B]⟩) (hb2 : (⟨2, ![1, B]⟩ : Shape).Broadcasts ⟨2, ![A, B]⟩)
    (x0 : FVec Ideal (⟨2, ![A, K]⟩ : Shape) .f32) (x2 : FVec Ideal (⟨2, ![A, 1]⟩ : Shape) .f32)
    (x6 : FVec Ideal (⟨2, ![K, B]⟩ : Shape) .f32) (x10 : FVec Ideal (⟨2, ![1, B]⟩ : Shape) .f32) (p : Fin A) (q : Fin B) :
    addf (FloatOps.matmul d none
          (truncf .bf16 (mulf (shapeCast (⟨2, ![A, K]⟩ : Shape) x0 hc0)
            (broadcastTo (⟨2, ![A, K]⟩ : Shape) (shapeCast (⟨2, ![A, 1]⟩ : Shape) x2 hc1) hb1)) h16)
          (truncf .bf16 x6 h16) (constant (F := Ideal) (⟨2, ![A, B]⟩ : Shape) .f32 0x00000000#32))
        (broadcastTo (⟨2, ![A, B]⟩ : Shape) (shapeCast (⟨2, ![1, B]⟩ : Shape) x10 hc2) hb2) (ix2 p q)
      = linear x0 x2 x6 x10 (ix2 p q) := by
  show FloatOps.matmul d none
          (truncf .bf16 (mulf (shapeCast (⟨2, ![A, K]⟩ : Shape) x0 hc0)
            (broadcastTo (⟨2, ![A, K]⟩ : Shape) (shapeCast (⟨2, ![A, 1]⟩ : Shape) x2 hc1) hb1)) h16)
          (truncf .bf16 x6 h16) (constant (F := Ideal) (⟨2, ![A, B]⟩ : Shape) .f32 0x00000000#32) (ix2 p q)
        + broadcastTo (⟨2, ![A, B]⟩ : Shape) (shapeCast (⟨2, ![1, B]⟩ : Shape) x10 hc2) hb2 (ix2 p q)
      = Cert.Layer.prod (scaleRows x0 x2) x6 (ix2 p q) + x10 (ix2 (0 : Fin 1) q)
  rw [Cert.Layer.matmul_trunc_apply d hr hs hl0 hl1 hr0 hr1 h16, broadcastTo_1b_ab_apply, shapeCast_self x10,
    shapeCast_self x0]
  refine congrArg (fun z => z + x10 (ix2 (0 : Fin 1) q)) (Cert.Layer.prod_congr _ _ _ _ p q p q (fun k => ?_) (fun _ => rfl))
  exact scale_term hc1 hb1 x0 x2 p k

/-- A hidden layer's tile as the next aggregation reads it: the same, clamped below at zero, rows scaled again. -/
theorem hidden_term {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h16 : FTy.bf16.bits < FTy.f32.bits)
    (hc0 : (⟨2, ![A, K]⟩ : Shape).ShapeCasts ⟨2, ![A, K]⟩) (hc1 : (⟨2, ![A, 1]⟩ : Shape).ShapeCasts ⟨2, ![A, 1]⟩)
    (hb1 : (⟨2, ![A, 1]⟩ : Shape).Broadcasts ⟨2, ![A, K]⟩)
    (hc2 : (⟨2, ![1, B]⟩ : Shape).ShapeCasts ⟨2, ![1, B]⟩) (hb2 : (⟨2, ![1, B]⟩ : Shape).Broadcasts ⟨2, ![A, B]⟩)
    (hb3 : (⟨2, ![A, 1]⟩ : Shape).Broadcasts ⟨2, ![A, B]⟩)
    (x0 : FVec Ideal (⟨2, ![A, K]⟩ : Shape) .f32) (x2 : FVec Ideal (⟨2, ![A, 1]⟩ : Shape) .f32)
    (x6 : FVec Ideal (⟨2, ![K, B]⟩ : Shape) .f32) (x10 : FVec Ideal (⟨2, ![1, B]⟩ : Shape) .f32)
    (x17 : FVec Ideal (⟨2, ![A, 1]⟩ : Shape) .f32) (p : Fin A) (q : Fin B) :
    mulf (maximumf
          (addf (FloatOps.matmul d none
              (truncf .bf16 (mulf (shapeCast (⟨2, ![A, K]⟩ : Shape) x0 hc0)
                (broadcastTo (⟨2, ![A, K]⟩ : Shape) (shapeCast (⟨2, ![A, 1]⟩ : Shape) x2 hc1) hb1)) h16)
              (truncf .bf16 x6 h16) (constant (F := Ideal) (⟨2, ![A, B]⟩ : Shape) .f32 0x00000000#32))
            (broadcastTo (⟨2, ![A, B]⟩ : Shape) (shapeCast (⟨2, ![1, B]⟩ : Shape) x10 hc2) hb2))
          (broadcast (⟨2, ![A, B]⟩ : Shape) (Scalar.ofBits (F := Ideal) .f32 0x00000000#32)))
        (broadcastTo (⟨2, ![A, B]⟩ : Shape) (shapeCast (⟨2, ![A, 1]⟩ : Shape) x17 hc1) hb3) (ix2 p q)
      = hidden x0 x2 x17 x6 x10 (ix2 p q) := by
  show max (addf (FloatOps.matmul d none
              (truncf .bf16 (mulf (shapeCast (⟨2, ![A, K]⟩ : Shape) x0 hc0)
                (broadcastTo (⟨2, ![A, K]⟩ : Shape) (shapeCast (⟨2, ![A, 1]⟩ : Shape) x2 hc1) hb1)) h16)
              (truncf .bf16 x6 h16) (constant (F := Ideal) (⟨2, ![A, B]⟩ : Shape) .f32 0x00000000#32))
            (broadcastTo (⟨2, ![A, B]⟩ : Shape) (shapeCast (⟨2, ![1, B]⟩ : Shape) x10 hc2) hb2) (ix2 p q))
          (Ideal.ofBits .f32 0x00000000#32)
        * broadcastTo (⟨2, ![A, B]⟩ : Shape) (shapeCast (⟨2, ![A, 1]⟩ : Shape) x17 hc1) hb3 (ix2 p q)
      = max (linear x0 x2 x6 x10 (ix2 p q)) 0 * x17 (ix2 p (0 : Fin 1))
  rw [linear_term d hr hs hl0 hl1 hr0 hr1 h16 hc0 hc1 hb1 hc2 hb2, Cert.LibKeepdims.broadcastTo_a1_ab_apply,
    shapeCast_self, Ideal.ofBits_zero_f32]

end Cert.LibGraphConv

end
-- ==== Proof.Payload.lean ====
/-
  What each kernel body stores, read at an entry of its tile: the row scaling, a hidden layer, the last layer —
  each as the layer function of the tile's own operands.
-/
import proofs.«116706_j21328807592611_1_alg».proof.Proof.Gen.KernelIdeal.Skeleton
import proofs.«116706_j21328807592611_1_alg».proof.Proof.LibGraphConv

noncomputable section

namespace Cert.Gcn.Pay

open Idealize.ShloMosaic Idealize.ShloMosaic.ValueIdx Cert.KernelIdeal Cert.KernelIdeal.Gen Cert.Gcn

/-! The two tile products contract the second axis of the left factor with the first of the right. -/

theorem dH_l0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dH_l1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem dH_r0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem dH_r1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem dF_l0 (i : S2000x10.Idx) (q : dot_S2000x128_S128x10_S2000x10_1_0_0_1_n_n.contr.Idx) :
    (dot_S2000x128_S128x10_S2000x10_1_0_0_1_n_n.lhsIdx i q 0).val = (i 0).val := by
  unfold DotDims.lhsIdx
  rw [dif_neg (show ¬(0 : Fin S2000x128.rank) ∈ dot_S2000x128_S128x10_S2000x10_1_0_0_1_n_n.lhsBatch by decide), dif_pos (show (0 : Fin S2000x128.rank) ∈ dot_S2000x128_S128x10_S2000x10_1_0_0_1_n_n.lhsNonContracting by decide)]
  rfl
theorem dF_l1 (i : S2000x10.Idx) (q : dot_S2000x128_S128x10_S2000x10_1_0_0_1_n_n.contr.Idx) :
    (dot_S2000x128_S128x10_S2000x10_1_0_0_1_n_n.lhsIdx i q 1).val = (q ⟨0, by decide⟩).val :=
  dot_S2000x128_S128x10_S2000x10_1_0_0_1_n_n.lhsIdx_val_of_single rfl i q
theorem dF_r0 (i : S2000x10.Idx) (q : dot_S2000x128_S128x10_S2000x10_1_0_0_1_n_n.contr.Idx) :
    (dot_S2000x128_S128x10_S2000x10_1_0_0_1_n_n.rhsIdx i q 0).val = (q ⟨0, by decide⟩).val :=
  dot_S2000x128_S128x10_S2000x10_1_0_0_1_n_n.rhsIdx_val_of_single rfl i q
theorem dF_r1 (i : S2000x10.Idx) (q : dot_S2000x128_S128x10_S2000x10_1_0_0_1_n_n.contr.Idx) :
    (dot_S2000x128_S128x10_S2000x10_1_0_0_1_n_n.rhsIdx i q 1).val = (i 1).val := by
  unfold DotDims.rhsIdx
  rw [dif_neg (show ¬(1 : Fin S128x10.rank) ∈ dot_S2000x128_S128x10_S2000x10_1_0_0_1_n_n.rhsBatch by decide), dif_pos (show (1 : Fin S128x10.rank) ∈ dot_S2000x128_S128x10_S2000x10_1_0_0_1_n_n.rhsNonContracting by decide)]
  rfl

/-- The scaling body stores, at (p, q), row p's entry times row p's factor. -/
theorem scale (x0 : FVec Ideal S2000x128 .f32) (x1 : FVec Ideal S2000x1 .f32) (p : Fin 2000) (q : Fin 128) :
    k0_pay1 (F := Ideal) x0 x1 (ix2 p q) = scaleRows x0 x1 (ix2 p q) :=
  Cert.LibGraphConv.scale_term shapeCasts_S2000x1_S2000x1 broadcasts_S2000x1_S2000x128 x0 x1 p q

/-- A hidden layer's body stores, in its second output, the hidden layer of its own operands (first layer). -/
theorem hidden1 (x0 : FVec Ideal S2000x128 .f32) (x2 : FVec Ideal S2000x1 .f32) (x6 : FVec Ideal S128x128 .f32)
    (x10 : FVec Ideal S1x128 .f32) (x17 : FVec Ideal S2000x1 .f32) (p : Fin 2000) (q : Fin 128) :
    k1_pay2 (F := Ideal) x0 x2 x6 x10 x17 (ix2 p q) = hidden x0 x2 x17 x6 x10 (ix2 p q) :=
  Cert.LibGraphConv.hidden_term dot_S2000x128_S128x128_S2000x128_1_0_0_1_n_n rfl rfl dH_l0 dH_l1 dH_r0 dH_r1 bitsLt_bf16_f32
    shapeCasts_S2000x128_S2000x128 shapeCasts_S2000x1_S2000x1 broadcasts_S2000x1_S2000x128 shapeCasts_S1x128_S1x128
    broadcasts_S1x128_S2000x128 broadcasts_S2000x1_S2000x128 x0 x2 x6 x10 x17 p q

/-- The same for the second layer. -/
theorem hidden2 (x0 : FVec Ideal S2000x128 .f32) (x2 : FVec Ideal S2000x1 .f32) (x6 : FVec Ideal S128x128 .f32)
    (x10 : FVec Ideal S1x128 .f32) (x17 : FVec Ideal S2000x1 .f32) (p : Fin 2000) (q : Fin 128) :
    k2_pay2 (F := Ideal) x0 x2 x6 x10 x17 (ix2 p q) = hidden x0 x2 x17 x6 x10 (ix2 p q) :=
  Cert.LibGraphConv.hidden_term dot_S2000x128_S128x128_S2000x128_1_0_0_1_n_n rfl rfl dH_l0 dH_l1 dH_r0 dH_r1 bitsLt_bf16_f32
    shapeCasts_S2000x128_S2000x128 shapeCasts_S2000x1_S2000x1 broadcasts_S2000x1_S2000x128 shapeCasts_S1x128_S1x128
    broadcasts_S1x128_S2000x128 broadcasts_S2000x1_S2000x128 x0 x2 x6 x10 x17 p q

/-- The same for the third layer. -/
theorem hidden3 (x0 : FVec Ideal S2000x128 .f32) (x2 : FVec Ideal S2000x1 .f32) (x6 : FVec Ideal S128x128 .f32)
    (x10 : FVec Ideal S1x128 .f32) (x17 : FVec Ideal S2000x1 .f32) (p : Fin 2000) (q : Fin 128) :
    k3_pay2 (F := Ideal) x0 x2 x6 x10 x17 (ix2 p q) = hidden x0 x2 x17 x6 x10 (ix2 p q) :=
  Cert.LibGraphConv.hidden_term dot_S2000x128_S128x128_S2000x128_1_0_0_1_n_n rfl rfl dH_l0 dH_l1 dH_r0 dH_r1 bitsLt_bf16_f32
    shapeCasts_S2000x128_S2000x128 shapeCasts_S2000x1_S2000x1 broadcasts_S2000x1_S2000x128 shapeCasts_S1x128_S1x128
    broadcasts_S1x128_S2000x128 broadcasts_S2000x1_S2000x128 x0 x2 x6 x10 x17 p q

/-- The last layer's body stores the linear layer of its own operands. -/
theorem last (x0 : FVec Ideal S2000x128 .f32) (x2 : FVec Ideal S2000x1 .f32) (x6 : FVec Ideal S128x10 .f32)
    (x10 : FVec Ideal S1x10 .f32) (p : Fin 2000) (q : Fin 10) :
    k4_pay1 (F := Ideal) x0 x2 x6 x10 (ix2 p q) = linear x0 x2 x6 x10 (ix2 p q) :=
  Cert.LibGraphConv.linear_term dot_S2000x128_S128x10_S2000x10_1_0_0_1_n_n rfl rfl dF_l0 dF_l1 dF_r0 dF_r1 bitsLt_bf16_f32
    shapeCasts_S2000x128_S2000x128 shapeCasts_S2000x1_S2000x1 broadcasts_S2000x1_S2000x128 shapeCasts_S1x10_S1x10
    broadcasts_S1x10_S2000x10 x0 x2 x6 x10 p q

end Cert.Gcn.Pay

end
-- ==== Proof.Region0.lean ====
/-
  The first kernel region: every row of the input features scaled by the node's out-degree factor.

  The grid has 25 points; point t works on rows 2000 t … 2000 t + 1999 of the feature array and of the one-column
  factor array, and writes back the same rows of the result. So the array the region leaves is `scaleRows` of the
  two arrays as the region finds them, whatever these hold.
-/
import proofs.«116706_j21328807592611_1_alg».proof.Proof.Gen.KernelIdeal.Frame
import proofs.«116706_j21328807592611_1_alg».proof.Proof.Payload

noncomputable section

namespace Cert.Gcn.Region0

open Idealize.ShloMosaic Idealize.ShloMosaic.ValueIdx Idealize.ShloMosaic.TcCoe Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- Every window's block at point t starts at row 2000 t, column 0. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the scaled array. -/
theorem flushed (c : Dev nD) (t : Fin cfg0.N) :
    (dat0 V c).flushed 2 t
      = ((cfg0.win 2).blk t).view.read (Elt Ideal) (scaleRows (V c main_arg0) (V c main_v10)) := by
  show (cfg0.win 2).cut (grid0.coords t) ((dat0 V c).after 2 t) = _
  rw [after0_2]
  unfold out0_2
  rw [View.canon_unit_zero hz]
  simp only [View.ld_unit_zero (S := S2000x128) hz, View.ld_unit_zero (S := S2000x1) hz]
  obtain ⟨e0, e1, e2, e3, e4, e5⟩ := idx t
  funext j
  obtain ⟨p, q, rfl⟩ : ∃ (p : Fin 2000) (q : Fin 128), j = ix2 p q := ⟨j 0, j 1, eq_ix2 j⟩
  have ht : t.val < 25 := lt_of_lt_of_eq t.isLt N_0
  have hemb : ((cfg0.win 2).blk t).view.emb (ix2 p q) = ix2 (⟨t.val * 2000 + p.val, by omega⟩ : Fin 50000) q := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  show k0_pay1 (F := Ideal) (iblk0 V c 0 t) (iblk0 V c 1 t) (ix2 p q)
    = scaleRows (V c main_arg0) (V c main_v10) (((cfg0.win 2).blk t).view.emb (ix2 p q))
  rw [hemb]
  refine (Pay.scale (iblk0 V c 0 t) (iblk0 V c 1 t) p q).trans ?_
  have h0 : iblk0 V c 0 t (ix2 p q) = V c main_arg0 (ix2 (⟨t.val * 2000 + p.val, by omega⟩ : Fin 50000) q) := by
    show V c main_arg0 (((cfg0.win 0).blk t).view.emb (ix2 p q)) = _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * q.val = q.val; omega
  have h1 : iblk0 V c 1 t (ix2 p (0 : Fin 1)) = V c main_v10 (ix2 (⟨t.val * 2000 + p.val, by omega⟩ : Fin 50000) (0 : Fin 1)) := by
    show V c main_v10 (((cfg0.win 1).blk t).view.emb (ix2 p (0 : Fin 1))) = _
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 1 + 1 * 0 = 0; omega
  exact scaleRows_congr (A := 2000) (A' := 50000) (B := 128) (B' := 128) (iblk0 V c 0 t) (iblk0 V c 1 t)
    (V c main_arg0) (V c main_v10) p q (⟨t.val * 2000 + p.val, by omega⟩ : Fin 50000) q h0 h1

/-- An index of the result array lies in point t's block iff its row lies in that block's 2000 rows. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v15).slice (win0_2.rect t)).set ↔ _
  rw [View.set_slice_whole, Rect.mem_set_unit]
  exact Iff.rfl

/-- Every index of the result array is in some point's block: row r is in block r / 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨e0, e1, e2, e3, e4, e5⟩ := idx t
  have tv : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The array the region leaves: the features' rows scaled, as one function of the arrays it found. -/
theorem final (c : Dev nD) :
    (dat0 V c).arrAt 2 cfg0.N = scaleRows (V c main_arg0) (V c main_v10) :=
  (dat0 V c).arrAt_eq_of_cover 2 _ (fun t _ => flushed V c t) cover

end Cert.Gcn.Region0

end
-- ==== Proof.Region1.lean ====
/-
  The first hidden layer's kernel region.

  The grid has 25 points; point t works on rows 2000 t … 2000 t + 1999 of the aggregated features and of the two
  one-column degree factors, on the whole weight matrix and the whole bias row, and writes back the same rows of its
  two results. The second result — the clamped layer output with rows scaled by the out-degree factor, which the next
  aggregation gathers — is therefore `hidden` of the five arrays as the region finds them, whatever these hold.
-/
import proofs.«116706_j21328807592611_1_alg».proof.Proof.Gen.KernelIdeal.Frame
import proofs.«116706_j21328807592611_1_alg».proof.Proof.Payload

noncomputable section

namespace Cert.Gcn.Region1

open Idealize.ShloMosaic Idealize.ShloMosaic.ValueIdx Idealize.ShloMosaic.TcCoe Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The row blocks at point t start at row 2000 t, column 0; the weights and the bias row are one block each. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_6.index t (0 : Fin 2) = t.val ∧ win1_6.index t (1 : Fin 2) = 0 :=
  (by decide +kernel : ∀ t : Fin grid1.N, _)

/-- What point t writes back to the second result is block t of the hidden layer of the arrays. -/
theorem flushed (c : Dev nD) (t : Fin cfg1.N) :
    (dat1 V c).flushed 6 t
      = ((cfg1.win 6).blk t).view.read (Elt Ideal)
          (hidden (V c main_v25) (V c main_v14) (V c main_v10) (V c main_arg3) (V c main_v26)) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz,
    View.ld_unit_zero (S := S128x128) hz, View.ld_unit_zero (S := S1x128) hz]
  obtain ⟨e0, e1, e2, e3, e4, e5, e6, e7, e8, e9, e10, e11⟩ := idx t
  funext j
  obtain ⟨p, q, rfl⟩ : ∃ (p : Fin 2000) (q : Fin 128), j = ix2 p q := ⟨j 0, j 1, eq_ix2 j⟩
  have ht : t.val < 25 := lt_of_lt_of_eq t.isLt N_1
  have hemb : ((cfg1.win 6).blk t).view.emb (ix2 p q) = ix2 (⟨t.val * 2000 + p.val, by omega⟩ : Fin 50000) q := by
    funext a; apply Fin.ext
    match a with
    | ⟨0, _⟩ => show win1_6.index t (0 : Fin 2) * 2000 + 1 * p.val = t.val * 2000 + p.val; omega
    | ⟨1, _⟩ => show win1_6.index t (1 : Fin 2) * 128 + 1 * q.val = q.val; omega
  show k1_pay2 (F := Ideal) (iblk1 V c 0 t) (iblk1 V c 1 t) (iblk1 V c 3 t) (iblk1 V c 4 t) (iblk1 V c 2 t) (ix2 p q)
    = hidden (V c main_v25) (V c main_v14) (V c main_v10) (V c main_arg3) (V c main_v26) (((cfg1.win 6).blk t).view.emb (ix2 p q))
  rw [hemb]
  refine (Pay.hidden1 (iblk1 V c 0 t) (iblk1 V c 1 t) (iblk1 V c 3 t) (iblk1 V c 4 t) (iblk1 V c 2 t) p q).trans ?_
  have h0 : ∀ k : Fin 128, iblk1 V c 0 t (ix2 p k) = V c main_v25 (ix2 (⟨t.val * 2000 + p.val, by omega⟩ : Fin 50000) k) := fun k => by
    show V c main_v25 (((cfg1.win 0).blk t).view.emb (ix2 p k)) = _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  have h1 : iblk1 V c 1 t (ix2 p (0 : Fin 1)) = V c main_v14 (ix2 (⟨t.val * 2000 + p.val, by omega⟩ : Fin 50000) (0 : Fin 1)) := by
    show V c main_v14 (((cfg1.win 1).blk t).view.emb (ix2 p (0 : Fin 1))) = _
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 1 + 1 * 0 = 0; omega
  have h2 : iblk1 V c 2 t (ix2 p (0 : Fin 1)) = V c main_v10 (ix2 (⟨t.val * 2000 + p.val, by omega⟩ : Fin 50000) (0 : Fin 1)) := by
    show V c main_v10 (((cfg1.win 2).blk t).view.emb (ix2 p (0 : Fin 1))) = _
    refine congrArg _ (funext fun a => Fin.ext ?_)
    match a with
    | ⟨0, _⟩ => show win1_2.index t (0 : Fin 2) * 2000 + 1 * p.val = t.val * 2000 + p.val; omega
    | ⟨1, _⟩ => show win1_2.index t (1 : Fin 2) * 1 + 1 * 0 = 0; omega
  have h3 : ∀ k : Fin 128, iblk1 V c 3 t (ix2 k q) = V c main_arg3 (ix2 k q) := fun k => by
    show V c main_arg3 (((cfg1.win 3).blk t).view.emb (ix2 k q)) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  have h4 : iblk1 V c 4 t (ix2 (0 : Fin 1) q) = V c main_v26 (ix2 (0 : Fin 1) q) := by
    show V c main_v26 (((cfg1.win 4).blk t).view.emb (ix2 (0 : Fin 1) q)) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  exact hidden_congr (A := 2000) (A' := 50000) (K := 128) (B := 128) (B' := 128)
    (iblk1 V c 0 t) (iblk1 V c 1 t) (iblk1 V c 2 t) (iblk1 V c 3 t) (iblk1 V c 4 t)
    (V c main_v25) (V c main_v14) (V c main_v10) (V c main_arg3) (V c main_v26)
    p q (⟨t.val * 2000 + p.val, by omega⟩ : Fin 50000) q h0 h1 h2 h3 h4

/-- An index of the result array lies in point t's block iff its row lies in that block's 2000 rows. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v27_1).slice (win1_6.rect t)).set ↔ _
  rw [View.set_slice_whole, Rect.mem_set_unit]
  exact Iff.rfl

/-- Every index of the result array is in some point's block: row r is in block r / 2000. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨e0, e1, e2, e3, e4, e5, e6, e7, e8, e9, e10, e11⟩ := idx t
  have tv : t.val = (i 0).val / 2000 := rfl
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The second result array the region leaves: the hidden layer of the arrays it found. -/
theorem final (c : Dev nD) :
    (dat1 V c).arrAt 6 cfg1.N
      = hidden (V c main_v25) (V c main_v14) (V c main_v10) (V c main_arg3) (V c main_v26) :=
  (dat1 V c).arrAt_eq_of_cover 6 _ (fun t _ => flushed V c t) cover

end Cert.Gcn.Region1

end
-- ==== Proof.Region2.lean ====
/-
  The second hidden layer's kernel region.

  The grid has 25 points; point t works on rows 2000 t … 2000 t + 1999 of the aggregated features and of the two
  one-column degree factors, on the whole weight matrix and the whole bias row, and writes back the same rows of its
  two results. The second result — the clamped layer output with rows scaled by the out-degree factor, which the next
  aggregation gathers — is therefore `hidden` of the five arrays as the region finds them, whatever these hold.
-/
import proofs.«116706_j21328807592611_1_alg».proof.Proof.Gen.KernelIdeal.Frame
import proofs.«116706_j21328807592611_1_alg».proof.Proof.Payload

noncomputable section

namespace Cert.Gcn.Region2

open Idealize.ShloMosaic Idealize.ShloMosaic.ValueIdx Idealize.ShloMosaic.TcCoe Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The row blocks at point t start at row 2000 t, column 0; the weights and the bias row are one block each. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = t.val ∧ win2_6.index t (1 : Fin 2) = 0 :=
  (by decide +kernel : ∀ t : Fin grid2.N, _)

/-- What point t writes back to the second result is block t of the hidden layer of the arrays. -/
theorem flushed (c : Dev nD) (t : Fin cfg2.N) :
    (dat2 V c).flushed 6 t
      = ((cfg2.win 6).blk t).view.read (Elt Ideal)
          (hidden (V c main_v37) (V c main_v14) (V c main_v10) (V c main_arg5) (V c main_v38)) := by
  show (cfg2.win 6).cut (grid2.coords t) ((dat2 V c).after 6 t) = _
  rw [after2_6]
  unfold out2_6
  rw [View.canon_unit_zero hz]
  simp only [View.ld_unit_zero (S := S2000x128) hz, View.ld_unit_zero (S := S2000x1) hz,
    View.ld_unit_zero (S := S128x128) hz, View.ld_unit_zero (S := S1x128) hz]
  obtain ⟨e0, e1, e2, e3, e4, e5, e6, e7, e8, e9, e10, e11⟩ := idx t
  funext j
  obtain ⟨p, q, rfl⟩ : ∃ (p : Fin 2000) (q : Fin 128), j = ix2 p q := ⟨j 0, j 1, eq_ix2 j⟩
  have ht : t.val < 25 := lt_of_lt_of_eq t.isLt N_2
  have hemb : ((cfg2.win 6).blk t).view.emb (ix2 p q) = ix2 (⟨t.val * 2000 + p.val, by omega⟩ : Fin 50000) q := by
    funext a; apply Fin.ext
    match a with
    | ⟨0, _⟩ => show win2_6.index t (0 : Fin 2) * 2000 + 1 * p.val = t.val * 2000 + p.val; omega
    | ⟨1, _⟩ => show win2_6.index t (1 : Fin 2) * 128 + 1 * q.val = q.val; omega
  show k2_pay2 (F := Ideal) (iblk2 V c 0 t) (iblk2 V c 1 t) (iblk2 V c 3 t) (iblk2 V c 4 t) (iblk2 V c 2 t) (ix2 p q)
    = hidden (V c main_v37) (V c main_v14) (V c main_v10) (V c main_arg5) (V c main_v38) (((cfg2.win 6).blk t).view.emb (ix2 p q))
  rw [hemb]
  refine (Pay.hidden2 (iblk2 V c 0 t) (iblk2 V c 1 t) (iblk2 V c 3 t) (iblk2 V c 4 t) (iblk2 V c 2 t) p q).trans ?_
  have h0 : ∀ k : Fin 128, iblk2 V c 0 t (ix2 p k) = V c main_v37 (ix2 (⟨t.val * 2000 + p.val, by omega⟩ : Fin 50000) k) := fun k => by
    show V c main_v37 (((cfg2.win 0).blk t).view.emb (ix2 p k)) = _
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  have h1 : iblk2 V c 1 t (ix2 p (0 : Fin 1)) = V c main_v14 (ix2 (⟨t.val * 2000 + p.val, by omega⟩ : Fin 50000) (0 : Fin 1)) := by
    show V c main_v14 (((cfg2.win 1).blk t).view.emb (ix2 p (0 : Fin 1))) = _
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 1 + 1 * 0 = 0; omega
  have h2 : iblk2 V c 2 t (ix2 p (0 : Fin 1)) = V c main_v10 (ix2 (⟨t.val * 2000 + p.val, by omega⟩ : Fin 50000) (0 : Fin 1)) := by
    show V c main_v10 (((cfg2.win 2).blk t).view.emb (ix2 p (0 : Fin 1))) = _
    refine congrArg _ (funext fun a => Fin.ext ?_)
    match a with
    | ⟨0, _⟩ => show win2_2.index t (0 : Fin 2) * 2000 + 1 * p.val = t.val * 2000 + p.val; omega
    | ⟨1, _⟩ => show win2_2.index t (1 : Fin 2) * 1 + 1 * 0 = 0; omega
  have h3 : ∀ k : Fin 128, iblk2 V c 3 t (ix2 k q) = V c main_arg5 (ix2 k q) := fun k => by
    show V c main_arg5 (((cfg2.win 3).blk t).view.emb (ix2 k q)) = _
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = q.val; omega
  have h4 : iblk2 V c 4 t (ix2 (0 : Fin 1) q) = V c main_v38 (ix2 (0 : Fin 1) q) := by
    show V c main_v38 (((cfg2.win 4).blk t).view.emb (ix2 (0 : Fin 1) q)) = _
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega
  exact hidden_congr (A := 2000) (A' := 50000) (K := 128) (B := 128) (B' := 128)
    (iblk2 V c 0 t) (iblk2 V c 1 t) (iblk2 V c 2 t) (iblk2 V c 3 t) (iblk2 V c 4 t)
    (V c main_v37) (V c main_v14) (V c main_v10) (V c main_arg5) (V c main_v38)
    p q (⟨t.val * 2000 + p.val, by omega⟩ : Fin 50000) q h0 h1 h2 h3 h4

/-- An index of the result array lies in point t's block iff its row lies in that block's 2000 rows. -/
theorem mem_blk (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v39_1).slice (win2_6.rect t)).set ↔ _
  rw [View.set_slice_whole, Rect.mem_set_unit]
  exact Iff.rfl

/-- Every index of the result array is in some point's block: row r is in block r / 2000. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨e0, e1, e2, e3, e4, e5, e6, e7, e8, e9, e10, e11⟩ := idx t
  have tv : t.val = (i 0).val / 2000 := rfl
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- The second result array the region leaves: the hidden layer of the arrays it found. -/
theorem final (c : Dev nD) :
    (dat2 V c).arrAt 6 cfg2.N
      = hidden (V c main_v37) (V c main_v14) (V c main_v10) (V c main_arg5) (V c main_v38) :=
  (dat2 V c).arrAt_eq_of_cover 6 _ (fun t _ => flushed V c t) cover

end Cert.Gcn.Region2

end
-- ==== Proof.Region3.lean ====
/-
  The third hidden layer's kernel region.

  The grid has 25 points; point t works on rows 2000 t … 2000 t + 1999 of the aggregated features and of the two
  one-column degree factors, on the whole weight matrix and the whole bias row, and writes back the same rows of its
  two results. The second result — the clamped layer output with rows scaled by the out-degree factor, which the next
  aggregation gathers — is therefore `hidden` of the five arrays as the region finds them, whatever these hold.
-/
import proofs.«116706_j21328807592611_1_alg».proof.Proof.Gen.KernelIdeal.Frame
import proofs.«116706_j21328807592611_1_alg».proof.Proof.Payload

noncomputable section

namespace Cert.Gcn.Region3

open Idealize.ShloMosaic Idealize.ShloMosaic.ValueIdx Idealize.ShloMosaic.TcCoe Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The row blocks at point t start at row 2000 t, column 0; the weights and the bias row are one block each. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_6.index t (0 : Fin 2) = t.val ∧ win3_6.index t (1 : Fin 2) = 0 :=
  (by decide +kernel : ∀ t : Fin grid3.N, _)

/-- What point t writes back to the second result is block t of the hidden layer of the arrays. -/
theorem flushed (c : Dev nD) (t : Fin cfg3.N) :
    (dat3 V c).flushed 6 t
      = ((cfg3.win 6).blk t).view.read (Elt Ideal)
          (hidden (V c main_v49) (V c main_v14) (V c main_v10) (V c main_arg7) (V c main_v50)) := by
  show (cfg3.win 6).cut (grid3.coords t) ((dat3 V c).after 6 t) = _
  rw [after3_6]
  unfold out3_6
  rw [View.canon_unit_zero hz]
  simp only [View.ld_unit_zero (S := S2000x128) hz, View.ld_unit_zero (S := S2000x1) hz,
    View.ld_unit_zero (S := S128x128) hz, View.ld_unit_zero (S := S1x128) hz]
  obtain ⟨e0, e1, e2, e3, e4, e5, e6, e7, e8, e9, e10, e11⟩ := idx t
  funext j
  obtain ⟨p, q, rfl⟩ : ∃ (p : Fin 2000) (q : Fin 128), j = ix2 p q := ⟨j 0, j 1, eq_ix2 j⟩
  have ht : t.val < 25 := lt_of_lt_of_eq t.isLt N_3
  have hemb : ((cfg3.win 6).blk t).view.emb (ix2 p q) = ix2 (⟨t.val * 2000 + p.val, by omega⟩ : Fin 50000) q := by
    funext a; apply Fin.ext
    match a with
    | ⟨0, _⟩ => show win3_6.index t (0 : Fin 2) * 2000 + 1 * p.val = t.val * 2000 + p.val; omega
    | ⟨1, _⟩ => show win3_6.index t (1 : Fin 2) * 128 + 1 * q.val = q.val; omega
  show k3_pay2 (F := Ideal) (iblk3 V c 0 t) (iblk3 V c 1 t) (iblk3 V c 3 t) (iblk3 V c 4 t) (iblk3 V c 2 t) (ix2 p q)
    = hidden (V c main_v49) (V c main_v14) (V c main_v10) (V c main_arg7) (V c main_v50) (((cfg3.win 6).blk t).view.emb (ix2 p q))
  rw [hemb]
  refine (Pay.hidden3 (iblk3 V c 0 t) (iblk3 V c 1 t) (iblk3 V c 3 t) (iblk3 V c 4 t) (iblk3 V c 2 t) p q).trans ?_
  have h0 : ∀ k : Fin 128, iblk3 V c 0 t (ix2 p k) = V c main_v49 (ix2 (⟨t.val * 2000 + p.val, by omega⟩ : Fin 50000) k) := fun k => by
    show V c main_v49 (((cfg3.win 0).blk t).view.emb (ix2 p k)) = _
    refine congrArg _ (funext fun a => Fin.ext ?_)
    match a with
    | ⟨0, _⟩ => show win3_0.index t (0 : Fin 2) * 2000 + 1 * p.val = t.val * 2000 + p.val; omega
    | ⟨1, _⟩ => show win3_0.index t (1 : Fin 2) * 128 + 1 * k.val = k.val; omega
  have h1 : iblk3 V c 1 t (ix2 p (0 : Fin 1)) = V c main_v14 (ix2 (⟨t.val * 2000 + p.val, by omega⟩ : Fin 50000) (0 : Fin 1)) := by
    show V c main_v14 (((cfg3.win 1).blk t).view.emb (ix2 p (0 : Fin 1))) = _
    refine congrArg _ (funext fun a => Fin.ext ?_)
    match a with
    | ⟨0, _⟩ => show win3_1.index t (0 : Fin 2) * 2000 + 1 * p.val = t.val * 2000 + p.val; omega
    | ⟨1, _⟩ => show win3_1.index t (1 : Fin 2) * 1 + 1 * 0 = 0; omega
  have h2 : iblk3 V c 2 t (ix2 p (0 : Fin 1)) = V c main_v10 (ix2 (⟨t.val * 2000 + p.val, by omega⟩ : Fin 50000) (0 : Fin 1)) := by
    show V c main_v10 (((cfg3.win 2).blk t).view.emb (ix2 p (0 : Fin 1))) = _
    refine congrArg _ (funext fun a => Fin.ext ?_)
    match a with
    | ⟨0, _⟩ => show win3_2.index t (0 : Fin 2) * 2000 + 1 * p.val = t.val * 2000 + p.val; omega
    | ⟨1, _⟩ => show win3_2.index t (1 : Fin 2) * 1 + 1 * 0 = 0; omega
  have h3 : ∀ k : Fin 128, iblk3 V c 3 t (ix2 k q) = V c main_arg7 (ix2 k q) := fun k => by
    show V c main_arg7 (((cfg3.win 3).blk t).view.emb (ix2 k q)) = _
    refine congrArg _ (funext fun a => Fin.ext ?_)
    match a with
    | ⟨0, _⟩ => show win3_3.index t (0 : Fin 2) * 128 + 1 * k.val = k.val; omega
    | ⟨1, _⟩ => show win3_3.index t (1 : Fin 2) * 128 + 1 * q.val = q.val; omega
  have h4 : iblk3 V c 4 t (ix2 (0 : Fin 1) q) = V c main_v50 (ix2 (0 : Fin 1) q) := by
    show V c main_v50 (((cfg3.win 4).blk t).view.emb (ix2 (0 : Fin 1) q)) = _
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * q.val = q.val; omega
  exact hidden_congr (A := 2000) (A' := 50000) (K := 128) (B := 128) (B' := 128)
    (iblk3 V c 0 t) (iblk3 V c 1 t) (iblk3 V c 2 t) (iblk3 V c 3 t) (iblk3 V c 4 t)
    (V c main_v49) (V c main_v14) (V c main_v10) (V c main_arg7) (V c main_v50)
    p q (⟨t.val * 2000 + p.val, by omega⟩ : Fin 50000) q h0 h1 h2 h3 h4

/-- An index of the result array lies in point t's block iff its row lies in that block's 2000 rows. -/
theorem mem_blk (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v51_1).slice (win3_6.rect t)).set ↔ _
  rw [View.set_slice_whole, Rect.mem_set_unit]
  exact Iff.rfl

/-- Every index of the result array is in some point's block: row r is in block r / 2000. -/
theorem cover (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨e0, e1, e2, e3, e4, e5, e6, e7, e8, e9, e10, e11⟩ := idx t
  have tv : t.val = (i 0).val / 2000 := rfl
  refine ⟨t, flush3_6 t, ?_⟩
  rw [mem_blk]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 128 ≤ (i 1).val ∧ (i 1).val < win3_6.index t (1 : Fin 2) * 128 + 128; omega

/-- The second result array the region leaves: the hidden layer of the arrays it found. -/
theorem final (c : Dev nD) :
    (dat3 V c).arrAt 6 cfg3.N
      = hidden (V c main_v49) (V c main_v14) (V c main_v10) (V c main_arg7) (V c main_v50) :=
  (dat3 V c).arrAt_eq_of_cover 6 _ (fun t _ => flushed V c t) cover

end Cert.Gcn.Region3

end
-- ==== Proof.Region4.lean ====
/-
  The last layer's kernel region.

  The grid has 25 points; point t works on rows 2000 t … 2000 t + 1999 of the aggregated features and of the
  in-degree factor, on the whole weight matrix and the whole bias row, and writes back the same rows of the result.
  So the array the region leaves is `linear` of the four arrays as the region finds them, whatever these hold.
-/
import proofs.«116706_j21328807592611_1_alg».proof.Proof.Gen.KernelIdeal.Frame
import proofs.«116706_j21328807592611_1_alg».proof.Proof.Payload

noncomputable section

namespace Cert.Gcn.Region4

open Idealize.ShloMosaic Idealize.ShloMosaic.ValueIdx Idealize.ShloMosaic.TcCoe Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The row blocks at point t start at row 2000 t, column 0; the weights and the bias row are one block each. -/
theorem idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- What point t writes back is block t of the linear layer of the arrays. -/
theorem flushed (c : Dev nD) (t : Fin cfg4.N) :
    (dat4 V c).flushed 4 t
      = ((cfg4.win 4).blk t).view.read (Elt Ideal)
          (linear (V c main_v61) (V c main_v14) (V c main_arg9) (V c main_v62)) := by
  show (cfg4.win 4).cut (grid4.coords t) ((dat4 V c).after 4 t) = _
  rw [after4_4]
  unfold out4_4
  rw [View.canon_unit_zero hz]
  simp only [View.ld_unit_zero (S := S2000x128) hz, View.ld_unit_zero (S := S2000x1) hz,
    View.ld_unit_zero (S := S128x10) hz, View.ld_unit_zero (S := S1x10) hz]
  obtain ⟨e0, e1, e2, e3, e4, e5, e6, e7, e8, e9⟩ := idx t
  funext j
  obtain ⟨p, q, rfl⟩ : ∃ (p : Fin 2000) (q : Fin 10), j = ix2 p q := ⟨j 0, j 1, eq_ix2 j⟩
  have ht : t.val < 25 := lt_of_lt_of_eq t.isLt N_4
  have hemb : ((cfg4.win 4).blk t).view.emb (ix2 p q) = ix2 (⟨t.val * 2000 + p.val, by omega⟩ : Fin 50000) q := by
    funext a; apply Fin.ext
    match a with
    | ⟨0, _⟩ => show win4_4.index t (0 : Fin 2) * 2000 + 1 * p.val = t.val * 2000 + p.val; omega
    | ⟨1, _⟩ => show win4_4.index t (1 : Fin 2) * 10 + 1 * q.val = q.val; omega
  show k4_pay1 (F := Ideal) (iblk4 V c 0 t) (iblk4 V c 1 t) (iblk4 V c 2 t) (iblk4 V c 3 t) (ix2 p q)
    = linear (V c main_v61) (V c main_v14) (V c main_arg9) (V c main_v62) (((cfg4.win 4).blk t).view.emb (ix2 p q))
  rw [hemb]
  refine (Pay.last (iblk4 V c 0 t) (iblk4 V c 1 t) (iblk4 V c 2 t) (iblk4 V c 3 t) p q).trans ?_
  have h0 : ∀ k : Fin 128, iblk4 V c 0 t (ix2 p k) = V c main_v61 (ix2 (⟨t.val * 2000 + p.val, by omega⟩ : Fin 50000) k) := fun k => by
    show V c main_v61 (((cfg4.win 0).blk t).view.emb (ix2 p k)) = _
    refine congrArg _ (funext fun a => Fin.ext ?_)
    match a with
    | ⟨0, _⟩ => show win4_0.index t (0 : Fin 2) * 2000 + 1 * p.val = t.val * 2000 + p.val; omega
    | ⟨1, _⟩ => show win4_0.index t (1 : Fin 2) * 128 + 1 * k.val = k.val; omega
  have h1 : iblk4 V c 1 t (ix2 p (0 : Fin 1)) = V c main_v14 (ix2 (⟨t.val * 2000 + p.val, by omega⟩ : Fin 50000) (0 : Fin 1)) := by
    show V c main_v14 (((cfg4.win 1).blk t).view.emb (ix2 p (0 : Fin 1))) = _
    refine congrArg _ (funext fun a => Fin.ext ?_)
    match a with
    | ⟨0, _⟩ => show win4_1.index t (0 : Fin 2) * 2000 + 1 * p.val = t.val * 2000 + p.val; omega
    | ⟨1, _⟩ => show win4_1.index t (1 : Fin 2) * 1 + 1 * 0 = 0; omega
  have h3 : ∀ k : Fin 128, iblk4 V c 2 t (ix2 k q) = V c main_arg9 (ix2 k q) := fun k => by
    show V c main_arg9 (((cfg4.win 2).blk t).view.emb (ix2 k q)) = _
    refine congrArg _ (funext fun a => Fin.ext ?_)
    match a with
    | ⟨0, _⟩ => show win4_2.index t (0 : Fin 2) * 128 + 1 * k.val = k.val; omega
    | ⟨1, _⟩ => show win4_2.index t (1 : Fin 2) * 10 + 1 * q.val = q.val; omega
  have h4 : iblk4 V c 3 t (ix2 (0 : Fin 1) q) = V c main_v62 (ix2 (0 : Fin 1) q) := by
    show V c main_v62 (((cfg4.win 3).blk t).view.emb (ix2 (0 : Fin 1) q)) = _
    refine congrArg _ (funext fun a => Fin.ext ?_)
    match a with
    | ⟨0, _⟩ => show win4_3.index t (0 : Fin 2) * 1 + 1 * 0 = 0; omega
    | ⟨1, _⟩ => show win4_3.index t (1 : Fin 2) * 10 + 1 * q.val = q.val; omega
  exact linear_congr (A := 2000) (A' := 50000) (K := 128) (B := 10) (B' := 10)
    (iblk4 V c 0 t) (iblk4 V c 1 t) (iblk4 V c 2 t) (iblk4 V c 3 t)
    (V c main_v61) (V c main_v14) (V c main_arg9) (V c main_v62)
    p q (⟨t.val * 2000 + p.val, by omega⟩ : Fin 50000) q h0 h1 h3 h4

/-- An index of the result array lies in point t's block iff its row lies in that block's 2000 rows. -/
theorem mem_blk (t : Fin cfg4.N) (i : S50000x10.Idx) :
    i ∈ ((cfg4.win 4).blk t).view.set ↔ ∀ a : Fin 2, win4_4.index t a * S2000x10.size a ≤ (i a).val ∧ (i a).val < win4_4.index t a * S2000x10.size a + S2000x10.size a := by
  show i ∈ ((View.whole main_v63).slice (win4_4.rect t)).set ↔ _
  rw [View.set_slice_whole, Rect.mem_set_unit]
  exact Iff.rfl

/-- Every index of the result array is in some point's block: row r is in block r / 2000. -/
theorem cover (i : S50000x10.Idx) :
    ∃ t : Fin cfg4.N, (cfg4.win 4).flush t = true ∧ i ∈ ((cfg4.win 4).blk t).view.set := by
  have hi0 : (i 0).val < 50000 := (i 0).isLt
  have hi1 : (i 1).val < 10 := (i 1).isLt
  have hN : cfg4.N = 25 := N_4
  let t : Fin cfg4.N := ⟨(i 0).val / 2000, by rw [hN]; omega⟩
  obtain ⟨e0, e1, e2, e3, e4, e5, e6, e7, e8, e9⟩ := idx t
  have tv : t.val = (i 0).val / 2000 := rfl
  refine ⟨t, flush4_4 t, ?_⟩
  rw [mem_blk]
  intro a
  match a with
  | ⟨0, _⟩ => show win4_4.index t (0 : Fin 2) * 2000 ≤ (i 0).val ∧ (i 0).val < win4_4.index t (0 : Fin 2) * 2000 + 2000; omega
  | ⟨1, _⟩ => show win4_4.index t (1 : Fin 2) * 10 ≤ (i 1).val ∧ (i 1).val < win4_4.index t (1 : Fin 2) * 10 + 10; omega

/-- The result array the region leaves: the linear layer of the arrays it found. -/
theorem final (c : Dev nD) :
    (dat4 V c).arrAt 4 cfg4.N = linear (V c main_v61) (V c main_v14) (V c main_arg9) (V c main_v62) :=
  (dat4 V c).arrAt_eq_of_cover 4 _ (fun t _ => flushed V c t) cover

end Cert.Gcn.Region4

end
-- ==== Proof.KernelValue.lean ====
/-
  The kernel program's result is the network.

  The program is five kernel regions among stretches of host operations. Each stretch leaves every buffer it does
  not write as it found it; each region leaves its result arrays at the layer function of the arrays it found and
  every other buffer as it found it. Walking from the launch memory: the two degree factors are computed once, in the
  first stretch; the first region scales the feature rows; then, four times, a stretch aggregates the previous
  region's rows along the edges and lays the bias out as a row, and a region applies the layer. The argument arrays
  and the two degree factors are read back through every boundary to where they were written.
-/
import proofs.«116706_j21328807592611_1_alg».proof.Proof.KernelRun
import proofs.«116706_j21328807592611_1_alg».proof.Proof.Region0
import proofs.«116706_j21328807592611_1_alg».proof.Proof.Region1
import proofs.«116706_j21328807592611_1_alg».proof.Proof.Region2
import proofs.«116706_j21328807592611_1_alg».proof.Proof.Region3
import proofs.«116706_j21328807592611_1_alg».proof.Proof.Region4

noncomputable section

namespace Cert.Gcn.Ker

open Idealize.ShloMosaic Idealize.ShloMosaic.ValueIdx Idealize.ShloMosaic.TcCoe Idealize.SL.Sem
open Cert.KernelIdeal Cert.KernelIdeal.Gen Cert.Gcn

/-- The aggregation as the kernel program writes it: the rows gathered at the edges' sources (a negative source
    index wrapped once), scatter-added into a zero array at the edges' destinations. -/
def agg (x1 x2 : IVec S600000 32) (hs : FVec Ideal S50000x128 .f32) : FVec Ideal S50000x128 .f32 :=
  Host.scatterAdd (F := Ideal) (φ := .f32) scatter_S50000x128_S600000x1_S600000x128_1_0_0_1
    (broadcastInDim S50000x128 ![] bcast_S_S50000x128 (constant (F := Ideal) S_ .f32 0x00000000#32))
    (broadcastInDim S600000x1 ![0] bcast_S600000_S600000x1_0 x2)
    (Host.gather gather_S50000x128_S600000x1_S600000x128_1_0_n_n_0_1_1128 hs
      (broadcastInDim S600000x1 ![0] bcast_S600000_S600000x1_0
        (select (cmpi .slt x1 (broadcastInDim S600000 ![] bcast_S_S600000 (constantI S_ 32 0#32)))
          (addi x1 (broadcastInDim S600000 ![] bcast_S_S600000 (constantI S_ 32 50000#32))) x1)))

/-- A degree factor: the number of edges at each node (a scatter-add of ones), clamped below at one, its reciprocal
    square root, as a one-column array. -/
def invDeg (x : IVec S600000 32) : FVec Ideal S50000x1 .f32 :=
  broadcastInDim S50000x1 ![0] bcast_S50000_S50000x1_0
    (Host.rsqrt (F := Ideal)
      (maximumf
        (Host.scatterAdd (F := Ideal) (φ := .f32) scatter_S50000_S600000x1_S600000_n_0_0_1
          (broadcastInDim S50000 ![] bcast_S_S50000 (constant (F := Ideal) S_ .f32 0x00000000#32))
          (broadcastInDim S600000x1 ![0] bcast_S600000_S600000x1_0 x)
          (broadcastInDim S600000 ![] bcast_S_S600000 (constant (F := Ideal) S_ .f32 0x3F800000#32)))
        (broadcastInDim S50000 ![] bcast_S_S50000 (constant (F := Ideal) S_ .f32 0x3F800000#32))))

variable (m : (ℓ : Loc nD τ sig) → Buf (Elt Ideal) ℓ) (ρ : Dev nD → PrngReg)

/-! ## What each stretch of host operations writes, and what it therefore keeps -/

/-- The buffers the first stretch writes. -/
abbrev wr0 : List (Ref sig .tc) := [main_cst, main_v0, main_cst_0, main_v1, main_v2, main_v3, main_cst_1, main_v4, main_v5, main_v6, main_cst_2, main_v7, main_v8, main_v9, main_v10, main_cst_3, main_v11, main_v12, main_v13, main_v14]
theorem wr0_sub : (hostOps0 : List (HloOp τ sig (Elt Ideal))).Forall fun op => op.writes ⊆ (wr0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep1 (c : Dev nD) (r : Ref sig .tc) (h : r ∉ wr0) :
    W1 m ρ c (Proc.devRef .tc r) = W0 m ρ c (Proc.devRef .tc r) :=
  StableHlo.after_of_writes_sub hostOps0 _ wr0_sub h

/-- The buffers the second stretch writes. -/
abbrev wr1 : List (Ref sig .tc) := [main_c, main_v16, main_v17, main_c_4, main_v18, main_v19, main_v20, main_v21, main_v22, main_cst_5, main_v23, main_v24, main_v25, main_v26]
theorem wr1_sub : (hostOps1 : List (HloOp τ sig (Elt Ideal))).Forall fun op => op.writes ⊆ (wr1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep3 (c : Dev nD) (r : Ref sig .tc) (h : r ∉ wr1) :
    W3 m ρ c (Proc.devRef .tc r) = W2 m ρ c (Proc.devRef .tc r) :=
  StableHlo.after_of_writes_sub hostOps1 _ wr1_sub h

/-- The buffers the third stretch writes. -/
abbrev wr2 : List (Ref sig .tc) := [main_c_6, main_v28, main_v29, main_c_7, main_v30, main_v31, main_v32, main_v33, main_v34, main_cst_8, main_v35, main_v36, main_v37, main_v38]
theorem wr2_sub : (hostOps2 : List (HloOp τ sig (Elt Ideal))).Forall fun op => op.writes ⊆ (wr2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep5 (c : Dev nD) (r : Ref sig .tc) (h : r ∉ wr2) :
    W5 m ρ c (Proc.devRef .tc r) = W4 m ρ c (Proc.devRef .tc r) :=
  StableHlo.after_of_writes_sub hostOps2 _ wr2_sub h

/-- The buffers the fourth stretch writes. -/
abbrev wr3 : List (Ref sig .tc) := [main_c_9, main_v40, main_v41, main_c_10, main_v42, main_v43, main_v44, main_v45, main_v46, main_cst_11, main_v47, main_v48, main_v49, main_v50]
theorem wr3_sub : (hostOps3 : List (HloOp τ sig (Elt Ideal))).Forall fun op => op.writes ⊆ (wr3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep7 (c : Dev nD) (r : Ref sig .tc) (h : r ∉ wr3) :
    W7 m ρ c (Proc.devRef .tc r) = W6 m ρ c (Proc.devRef .tc r) :=
  StableHlo.after_of_writes_sub hostOps3 _ wr3_sub h

/-- The buffers the fifth stretch writes. -/
abbrev wr4 : List (Ref sig .tc) := [main_c_12, main_v52, main_v53, main_c_13, main_v54, main_v55, main_v56, main_v57, main_v58, main_cst_14, main_v59, main_v60, main_v61, main_v62]
theorem wr4_sub : (hostOps4 : List (HloOp τ sig (Elt Ideal))).Forall fun op => op.writes ⊆ (wr4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem keep9 (c : Dev nD) (r : Ref sig .tc) (h : r ∉ wr4) :
    W9 m ρ c (Proc.devRef .tc r) = W8 m ρ c (Proc.devRef .tc r) :=
  StableHlo.after_of_writes_sub hostOps4 _ wr4_sub h

/-! ## The argument arrays and the degree factors, read back through the boundaries -/
theorem W1_arg0 (c : Dev nD) : W1 m ρ c (Proc.devRef .tc main_arg0) = m ((c : Thread nD τ).loc main_arg0) :=
  (keep1 m ρ c main_arg0 (by decide))
theorem W2_arg1 (c : Dev nD) : W2 m ρ c (Proc.devRef .tc main_arg1) = m ((c : Thread nD τ).loc main_arg1) :=
  ((W2_of_ne m ρ c main_arg1 (by decide)).trans (keep1 m ρ c main_arg1 (by decide)))
theorem W2_arg2 (c : Dev nD) : W2 m ρ c (Proc.devRef .tc main_arg2) = m ((c : Thread nD τ).loc main_arg2) :=
  ((W2_of_ne m ρ c main_arg2 (by decide)).trans (keep1 m ρ c main_arg2 (by decide)))
theorem W2_arg4 (c : Dev nD) : W2 m ρ c (Proc.devRef .tc main_arg4) = m ((c : Thread nD τ).loc main_arg4) :=
  ((W2_of_ne m ρ c main_arg4 (by decide)).trans (keep1 m ρ c main_arg4 (by decide)))
theorem W3_arg3 (c : Dev nD) : W3 m ρ c (Proc.devRef .tc main_arg3) = m ((c : Thread nD τ).loc main_arg3) :=
  (((keep3 m ρ c main_arg3 (by decide)).trans (W2_of_ne m ρ c main_arg3 (by decide))).trans (keep1 m ρ c main_arg3 (by decide)))
theorem W4_arg1 (c : Dev nD) : W4 m ρ c (Proc.devRef .tc main_arg1) = m ((c : Thread nD τ).loc main_arg1) :=
  ((((W4_of_ne m ρ c main_arg1 (by decide)).trans (keep3 m ρ c main_arg1 (by decide))).trans (W2_of_ne m ρ c main_arg1 (by decide))).trans (keep1 m ρ c main_arg1 (by decide)))
theorem W4_arg2 (c : Dev nD) : W4 m ρ c (Proc.devRef .tc main_arg2) = m ((c : Thread nD τ).loc main_arg2) :=
  ((((W4_of_ne m ρ c main_arg2 (by decide)).trans (keep3 m ρ c main_arg2 (by decide))).trans (W2_of_ne m ρ c main_arg2 (by decide))).trans (keep1 m ρ c main_arg2 (by decide)))
theorem W4_arg6 (c : Dev nD) : W4 m ρ c (Proc.devRef .tc main_arg6) = m ((c : Thread nD τ).loc main_arg6) :=
  ((((W4_of_ne m ρ c main_arg6 (by decide)).trans (keep3 m ρ c main_arg6 (by decide))).trans (W2_of_ne m ρ c main_arg6 (by decide))).trans (keep1 m ρ c main_arg6 (by decide)))
theorem W5_arg5 (c : Dev nD) : W5 m ρ c (Proc.devRef .tc main_arg5) = m ((c : Thread nD τ).loc main_arg5) :=
  (((((keep5 m ρ c main_arg5 (by decide)).trans (W4_of_ne m ρ c main_arg5 (by decide))).trans (keep3 m ρ c main_arg5 (by decide))).trans (W2_of_ne m ρ c main_arg5 (by decide))).trans (keep1 m ρ c main_arg5 (by decide)))
theorem W6_arg1 (c : Dev nD) : W6 m ρ c (Proc.devRef .tc main_arg1) = m ((c : Thread nD τ).loc main_arg1) :=
  ((((((W6_of_ne m ρ c main_arg1 (by decide)).trans (keep5 m ρ c main_arg1 (by decide))).trans (W4_of_ne m ρ c main_arg1 (by decide))).trans (keep3 m ρ c main_arg1 (by decide))).trans (W2_of_ne m ρ c main_arg1 (by decide))).trans (keep1 m ρ c main_arg1 (by decide)))
theorem W6_arg2 (c : Dev nD) : W6 m ρ c (Proc.devRef .tc main_arg2) = m ((c : Thread nD τ).loc main_arg2) :=
  ((((((W6_of_ne m ρ c main_arg2 (by decide)).trans (keep5 m ρ c main_arg2 (by decide))).trans (W4_of_ne m ρ c main_arg2 (by decide))).trans (keep3 m ρ c main_arg2 (by decide))).trans (W2_of_ne m ρ c main_arg2 (by decide))).trans (keep1 m ρ c main_arg2 (by decide)))
theorem W6_arg8 (c : Dev nD) : W6 m ρ c (Proc.devRef .tc main_arg8) = m ((c : Thread nD τ).loc main_arg8) :=
  ((((((W6_of_ne m ρ c main_arg8 (by decide)).trans (keep5 m ρ c main_arg8 (by decide))).trans (W4_of_ne m ρ c main_arg8 (by decide))).trans (keep3 m ρ c main_arg8 (by decide))).trans (W2_of_ne m ρ c main_arg8 (by decide))).trans (keep1 m ρ c main_arg8 (by decide)))
theorem W7_arg7 (c : Dev nD) : W7 m ρ c (Proc.devRef .tc main_arg7) = m ((c : Thread nD τ).loc main_arg7) :=
  (((((((keep7 m ρ c main_arg7 (by decide)).trans (W6_of_ne m ρ c main_arg7 (by decide))).trans (keep5 m ρ c main_arg7 (by decide))).trans (W4_of_ne m ρ c main_arg7 (by decide))).trans (keep3 m ρ c main_arg7 (by decide))).trans (W2_of_ne m ρ c main_arg7 (by decide))).trans (keep1 m ρ c main_arg7 (by decide)))
theorem W8_arg1 (c : Dev nD) : W8 m ρ c (Proc.devRef .tc main_arg1) = m ((c : Thread nD τ).loc main_arg1) :=
  ((((((((W8_of_ne m ρ c main_arg1 (by decide)).trans (keep7 m ρ c main_arg1 (by decide))).trans (W6_of_ne m ρ c main_arg1 (by decide))).trans (keep5 m ρ c main_arg1 (by decide))).trans (W4_of_ne m ρ c main_arg1 (by decide))).trans (keep3 m ρ c main_arg1 (by decide))).trans (W2_of_ne m ρ c main_arg1 (by decide))).trans (keep1 m ρ c main_arg1 (by decide)))
theorem W8_arg2 (c : Dev nD) : W8 m ρ c (Proc.devRef .tc main_arg2) = m ((c : Thread nD τ).loc main_arg2) :=
  ((((((((W8_of_ne m ρ c main_arg2 (by decide)).trans (keep7 m ρ c main_arg2 (by decide))).trans (W6_of_ne m ρ c main_arg2 (by decide))).trans (keep5 m ρ c main_arg2 (by decide))).trans (W4_of_ne m ρ c main_arg2 (by decide))).trans (keep3 m ρ c main_arg2 (by decide))).trans (W2_of_ne m ρ c main_arg2 (by decide))).trans (keep1 m ρ c main_arg2 (by decide)))
theorem W8_arg10 (c : Dev nD) : W8 m ρ c (Proc.devRef .tc main_arg10) = m ((c : Thread nD τ).loc main_arg10) :=
  ((((((((W8_of_ne m ρ c main_arg10 (by decide)).trans (keep7 m ρ c main_arg10 (by decide))).trans (W6_of_ne m ρ c main_arg10 (by decide))).trans (keep5 m ρ c main_arg10 (by decide))).trans (W4_of_ne m ρ c main_arg10 (by decide))).trans (keep3 m ρ c main_arg10 (by decide))).trans (W2_of_ne m ρ c main_arg10 (by decide))).trans (keep1 m ρ c main_arg10 (by decide)))
theorem W9_arg9 (c : Dev nD) : W9 m ρ c (Proc.devRef .tc main_arg9) = m ((c : Thread nD τ).loc main_arg9) :=
  (((((((((keep9 m ρ c main_arg9 (by decide)).trans (W8_of_ne m ρ c main_arg9 (by decide))).trans (keep7 m ρ c main_arg9 (by decide))).trans (W6_of_ne m ρ c main_arg9 (by decide))).trans (keep5 m ρ c main_arg9 (by decide))).trans (W4_of_ne m ρ c main_arg9 (by decide))).trans (keep3 m ρ c main_arg9 (by decide))).trans (W2_of_ne m ρ c main_arg9 (by decide))).trans (keep1 m ρ c main_arg9 (by decide)))

/-- The out-degree factor is written by the first stretch, from the edges' sources. -/
theorem W1_v10 (c : Dev nD) : W1 m ρ c (Proc.devRef .tc main_v10) = invDeg (m ((c : Thread nD τ).loc main_arg1)) := by
  show StableHlo.after hostOps0 (W0 m ρ c) (Proc.devRef .tc main_v10) = _
  after_results
  rfl
/-- The in-degree factor is written by the first stretch, from the edges' destinations. -/
theorem W1_v14 (c : Dev nD) : W1 m ρ c (Proc.devRef .tc main_v14) = invDeg (m ((c : Thread nD τ).loc main_arg2)) := by
  show StableHlo.after hostOps0 (W0 m ρ c) (Proc.devRef .tc main_v14) = _
  after_results
  rfl
theorem W3_v14 (c : Dev nD) : W3 m ρ c (Proc.devRef .tc main_v14) = invDeg (m ((c : Thread nD τ).loc main_arg2)) :=
  ((keep3 m ρ c main_v14 (by decide)).trans (W2_of_ne m ρ c main_v14 (by decide))).trans (W1_v14 m ρ c)
theorem W3_v10 (c : Dev nD) : W3 m ρ c (Proc.devRef .tc main_v10) = invDeg (m ((c : Thread nD τ).loc main_arg1)) :=
  ((keep3 m ρ c main_v10 (by decide)).trans ((W2_arr m ρ c 1).trans (((dat0 (V1 m ρ) c).arrAt_in 1 rfl _).trans (A_eq0 (V1 m ρ) c 1)))).trans (W1_v10 m ρ c)
theorem W5_v14 (c : Dev nD) : W5 m ρ c (Proc.devRef .tc main_v14) = invDeg (m ((c : Thread nD τ).loc main_arg2)) :=
  ((((keep5 m ρ c main_v14 (by decide)).trans ((W4_arr m ρ c 1).trans (((dat1 (V3 m ρ) c).arrAt_in 1 rfl _).trans (A_eq1 (V3 m ρ) c 1)))).trans (keep3 m ρ c main_v14 (by decide))).trans (W2_of_ne m ρ c main_v14 (by decide))).trans (W1_v14 m ρ c)
theorem W5_v10 (c : Dev nD) : W5 m ρ c (Proc.devRef .tc main_v10) = invDeg (m ((c : Thread nD τ).loc main_arg1)) :=
  ((((keep5 m ρ c main_v10 (by decide)).trans ((W4_arr m ρ c 2).trans (((dat1 (V3 m ρ) c).arrAt_in 2 rfl _).trans (A_eq1 (V3 m ρ) c 2)))).trans (keep3 m ρ c main_v10 (by decide))).trans ((W2_arr m ρ c 1).trans (((dat0 (V1 m ρ) c).arrAt_in 1 rfl _).trans (A_eq0 (V1 m ρ) c 1)))).trans (W1_v10 m ρ c)
theorem W7_v14 (c : Dev nD) : W7 m ρ c (Proc.devRef .tc main_v14) = invDeg (m ((c : Thread nD τ).loc main_arg2)) :=
  ((((((keep7 m ρ c main_v14 (by decide)).trans ((W6_arr m ρ c 1).trans (((dat2 (V5 m ρ) c).arrAt_in 1 rfl _).trans (A_eq2 (V5 m ρ) c 1)))).trans (keep5 m ρ c main_v14 (by decide))).trans ((W4_arr m ρ c 1).trans (((dat1 (V3 m ρ) c).arrAt_in 1 rfl _).trans (A_eq1 (V3 m ρ) c 1)))).trans (keep3 m ρ c main_v14 (by decide))).trans (W2_of_ne m ρ c main_v14 (by decide))).trans (W1_v14 m ρ c)
theorem W7_v10 (c : Dev nD) : W7 m ρ c (Proc.devRef .tc main_v10) = invDeg (m ((c : Thread nD τ).loc main_arg1)) :=
  ((((((keep7 m ρ c main_v10 (by decide)).trans ((W6_arr m ρ c 2).trans (((dat2 (V5 m ρ) c).arrAt_in 2 rfl _).trans (A_eq2 (V5 m ρ) c 2)))).trans (keep5 m ρ c main_v10 (by decide))).trans ((W4_arr m ρ c 2).trans (((dat1 (V3 m ρ) c).arrAt_in 2 rfl _).trans (A_eq1 (V3 m ρ) c 2)))).trans (keep3 m ρ c main_v10 (by decide))).trans ((W2_arr m ρ c 1).trans (((dat0 (V1 m ρ) c).arrAt_in 1 rfl _).trans (A_eq0 (V1 m ρ) c 1)))).trans (W1_v10 m ρ c)
theorem W9_v14 (c : Dev nD) : W9 m ρ c (Proc.devRef .tc main_v14) = invDeg (m ((c : Thread nD τ).loc main_arg2)) :=
  ((((((((keep9 m ρ c main_v14 (by decide)).trans ((W8_arr m ρ c 1).trans (((dat3 (V7 m ρ) c).arrAt_in 1 rfl _).trans (A_eq3 (V7 m ρ) c 1)))).trans (keep7 m ρ c main_v14 (by decide))).trans ((W6_arr m ρ c 1).trans (((dat2 (V5 m ρ) c).arrAt_in 1 rfl _).trans (A_eq2 (V5 m ρ) c 1)))).trans (keep5 m ρ c main_v14 (by decide))).trans ((W4_arr m ρ c 1).trans (((dat1 (V3 m ρ) c).arrAt_in 1 rfl _).trans (A_eq1 (V3 m ρ) c 1)))).trans (keep3 m ρ c main_v14 (by decide))).trans (W2_of_ne m ρ c main_v14 (by decide))).trans (W1_v14 m ρ c)

/-! ## The stretches' results and the regions' results, each from what it reads -/

/-- The first region scales the feature rows by the out-degree factor. -/
theorem out0_of (c : Dev nD) (x : FVec Ideal S50000x128 .f32) (s : FVec Ideal S50000x1 .f32)
    (hx : W1 m ρ c (Proc.devRef .tc main_arg0) = x) (hs : W1 m ρ c (Proc.devRef .tc main_v10) = s) :
    W2 m ρ c (Proc.devRef .tc main_v15) = scaleRows x s := by
  subst hx hs
  exact (W2_arr m ρ c 2).trans (Region0.final (V1 m ρ) c)

set_option maxHeartbeats 4000000 in
/-- Stretch 2, from any contents: its aggregation buffer ends at the aggregation of what it reads. -/
theorem agg1_gen (W : Valuation τ sig (Elt Ideal)) :
    StableHlo.after hostOps1 W (Proc.devRef .tc main_v25)
      = agg (W (Proc.devRef .tc main_arg1)) (W (Proc.devRef .tc main_arg2)) (W (Proc.devRef .tc main_v15)) := by
  after_results
  rfl
/-- Stretch 2, from any contents: its bias row is the bias vector laid out as one row. -/
theorem row1_gen (W : Valuation τ sig (Elt Ideal)) :
    StableHlo.after hostOps1 W (Proc.devRef .tc main_v26) = rowOf (W (Proc.devRef .tc main_arg4)) := by
  after_results
  funext i
  exact congrFun (Cert.LibGraphConv.row_term shapeCasts_S128_S1x128 (W (Proc.devRef .tc main_arg4))) i
/-- Stretch 2 aggregates the previous region's rows along the edges. -/
theorem agg1_of (c : Dev nD) (x1 x2 : IVec S600000 32) (hs : FVec Ideal S50000x128 .f32)
    (h1 : W2 m ρ c (Proc.devRef .tc main_arg1) = x1) (h2 : W2 m ρ c (Proc.devRef .tc main_arg2) = x2) (h : W2 m ρ c (Proc.devRef .tc main_v15) = hs) :
    W3 m ρ c (Proc.devRef .tc main_v25) = agg x1 x2 hs := by
  subst h1 h2 h
  exact agg1_gen (W2 m ρ c)
/-- Stretch 2 lays the bias out as a one-row array. -/
theorem row1_of (c : Dev nD) (b : FVec Ideal S128 .f32) (hb : W2 m ρ c (Proc.devRef .tc main_arg4) = b) :
    W3 m ρ c (Proc.devRef .tc main_v26) = rowOf b := by
  subst hb
  exact row1_gen (W2 m ρ c)
/-- Region 1 applies the hidden layer. -/
theorem out1_of (c : Dev nD) (a : FVec Ideal S50000x128 .f32) (s t : FVec Ideal S50000x1 .f32)
    (w : FVec Ideal S128x128 .f32) (b : FVec Ideal S1x128 .f32)
    (ha : W3 m ρ c (Proc.devRef .tc main_v25) = a) (hs : W3 m ρ c (Proc.devRef .tc main_v14) = s) (ht : W3 m ρ c (Proc.devRef .tc main_v10) = t)
    (hw : W3 m ρ c (Proc.devRef .tc main_arg3) = w) (hb : W3 m ρ c (Proc.devRef .tc main_v26) = b) :
    W4 m ρ c (Proc.devRef .tc main_v27_1) = hidden a s t w b := by
  subst ha hs ht hw hb
  exact (W4_arr m ρ c 6).trans (Region1.final (V3 m ρ) c)

set_option maxHeartbeats 4000000 in
/-- Stretch 3, from any contents: its aggregation buffer ends at the aggregation of what it reads. -/
theorem agg2_gen (W : Valuation τ sig (Elt Ideal)) :
    StableHlo.after hostOps2 W (Proc.devRef .tc main_v37)
      = agg (W (Proc.devRef .tc main_arg1)) (W (Proc.devRef .tc main_arg2)) (W (Proc.devRef .tc main_v27_1)) := by
  after_results
  rfl
/-- Stretch 3, from any contents: its bias row is the bias vector laid out as one row. -/
theorem row2_gen (W : Valuation τ sig (Elt Ideal)) :
    StableHlo.after hostOps2 W (Proc.devRef .tc main_v38) = rowOf (W (Proc.devRef .tc main_arg6)) := by
  after_results
  funext i
  exact congrFun (Cert.LibGraphConv.row_term shapeCasts_S128_S1x128 (W (Proc.devRef .tc main_arg6))) i
/-- Stretch 3 aggregates the previous region's rows along the edges. -/
theorem agg2_of (c : Dev nD) (x1 x2 : IVec S600000 32) (hs : FVec Ideal S50000x128 .f32)
    (h1 : W4 m ρ c (Proc.devRef .tc main_arg1) = x1) (h2 : W4 m ρ c (Proc.devRef .tc main_arg2) = x2) (h : W4 m ρ c (Proc.devRef .tc main_v27_1) = hs) :
    W5 m ρ c (Proc.devRef .tc main_v37) = agg x1 x2 hs := by
  subst h1 h2 h
  exact agg2_gen (W4 m ρ c)
/-- Stretch 3 lays the bias out as a one-row array. -/
theorem row2_of (c : Dev nD) (b : FVec Ideal S128 .f32) (hb : W4 m ρ c (Proc.devRef .tc main_arg6) = b) :
    W5 m ρ c (Proc.devRef .tc main_v38) = rowOf b := by
  subst hb
  exact row2_gen (W4 m ρ c)
/-- Region 2 applies the hidden layer. -/
theorem out2_of (c : Dev nD) (a : FVec Ideal S50000x128 .f32) (s t : FVec Ideal S50000x1 .f32)
    (w : FVec Ideal S128x128 .f32) (b : FVec Ideal S1x128 .f32)
    (ha : W5 m ρ c (Proc.devRef .tc main_v37) = a) (hs : W5 m ρ c (Proc.devRef .tc main_v14) = s) (ht : W5 m ρ c (Proc.devRef .tc main_v10) = t)
    (hw : W5 m ρ c (Proc.devRef .tc main_arg5) = w) (hb : W5 m ρ c (Proc.devRef .tc main_v38) = b) :
    W6 m ρ c (Proc.devRef .tc main_v39_1) = hidden a s t w b := by
  subst ha hs ht hw hb
  exact (W6_arr m ρ c 6).trans (Region2.final (V5 m ρ) c)

set_option maxHeartbeats 4000000 in
/-- Stretch 4, from any contents: its aggregation buffer ends at the aggregation of what it reads. -/
theorem agg3_gen (W : Valuation τ sig (Elt Ideal)) :
    StableHlo.after hostOps3 W (Proc.devRef .tc main_v49)
      = agg (W (Proc.devRef .tc main_arg1)) (W (Proc.devRef .tc main_arg2)) (W (Proc.devRef .tc main_v39_1)) := by
  after_results
  rfl
/-- Stretch 4, from any contents: its bias row is the bias vector laid out as one row. -/
theorem row3_gen (W : Valuation τ sig (Elt Ideal)) :
    StableHlo.after hostOps3 W (Proc.devRef .tc main_v50) = rowOf (W (Proc.devRef .tc main_arg8)) := by
  after_results
  funext i
  exact congrFun (Cert.LibGraphConv.row_term shapeCasts_S128_S1x128 (W (Proc.devRef .tc main_arg8))) i
/-- Stretch 4 aggregates the previous region's rows along the edges. -/
theorem agg3_of (c : Dev nD) (x1 x2 : IVec S600000 32) (hs : FVec Ideal S50000x128 .f32)
    (h1 : W6 m ρ c (Proc.devRef .tc main_arg1) = x1) (h2 : W6 m ρ c (Proc.devRef .tc main_arg2) = x2) (h : W6 m ρ c (Proc.devRef .tc main_v39_1) = hs) :
    W7 m ρ c (Proc.devRef .tc main_v49) = agg x1 x2 hs := by
  subst h1 h2 h
  exact agg3_gen (W6 m ρ c)
/-- Stretch 4 lays the bias out as a one-row array. -/
theorem row3_of (c : Dev nD) (b : FVec Ideal S128 .f32) (hb : W6 m ρ c (Proc.devRef .tc main_arg8) = b) :
    W7 m ρ c (Proc.devRef .tc main_v50) = rowOf b := by
  subst hb
  exact row3_gen (W6 m ρ c)
/-- Region 3 applies the hidden layer. -/
theorem out3_of (c : Dev nD) (a : FVec Ideal S50000x128 .f32) (s t : FVec Ideal S50000x1 .f32)
    (w : FVec Ideal S128x128 .f32) (b : FVec Ideal S1x128 .f32)
    (ha : W7 m ρ c (Proc.devRef .tc main_v49) = a) (hs : W7 m ρ c (Proc.devRef .tc main_v14) = s) (ht : W7 m ρ c (Proc.devRef .tc main_v10) = t)
    (hw : W7 m ρ c (Proc.devRef .tc main_arg7) = w) (hb : W7 m ρ c (Proc.devRef .tc main_v50) = b) :
    W8 m ρ c (Proc.devRef .tc main_v51_1) = hidden a s t w b := by
  subst ha hs ht hw hb
  exact (W8_arr m ρ c 6).trans (Region3.final (V7 m ρ) c)

set_option maxHeartbeats 4000000 in
/-- Stretch 5, from any contents: its aggregation buffer ends at the aggregation of what it reads. -/
theorem agg4_gen (W : Valuation τ sig (Elt Ideal)) :
    StableHlo.after hostOps4 W (Proc.devRef .tc main_v61)
      = agg (W (Proc.devRef .tc main_arg1)) (W (Proc.devRef .tc main_arg2)) (W (Proc.devRef .tc main_v51_1)) := by
  after_results
  rfl
/-- Stretch 5, from any contents: its bias row is the bias vector laid out as one row. -/
theorem row4_gen (W : Valuation τ sig (Elt Ideal)) :
    StableHlo.after hostOps4 W (Proc.devRef .tc main_v62) = rowOf (W (Proc.devRef .tc main_arg10)) := by
  after_results
  funext i
  exact congrFun (Cert.LibGraphConv.row_term shapeCasts_S10_S1x10 (W (Proc.devRef .tc main_arg10))) i
/-- Stretch 5 aggregates the previous region's rows along the edges. -/
theorem agg4_of (c : Dev nD) (x1 x2 : IVec S600000 32) (hs : FVec Ideal S50000x128 .f32)
    (h1 : W8 m ρ c (Proc.devRef .tc main_arg1) = x1) (h2 : W8 m ρ c (Proc.devRef .tc main_arg2) = x2) (h : W8 m ρ c (Proc.devRef .tc main_v51_1) = hs) :
    W9 m ρ c (Proc.devRef .tc main_v61) = agg x1 x2 hs := by
  subst h1 h2 h
  exact agg4_gen (W8 m ρ c)
/-- Stretch 5 lays the bias out as a one-row array. -/
theorem row4_of (c : Dev nD) (b : FVec Ideal S10 .f32) (hb : W8 m ρ c (Proc.devRef .tc main_arg10) = b) :
    W9 m ρ c (Proc.devRef .tc main_v62) = rowOf b := by
  subst hb
  exact row4_gen (W8 m ρ c)
/-- The last region applies the linear layer. -/
theorem out4_of (c : Dev nD) (a : FVec Ideal S50000x128 .f32) (s : FVec Ideal S50000x1 .f32)
    (w : FVec Ideal S128x10 .f32) (b : FVec Ideal S1x10 .f32)
    (ha : W9 m ρ c (Proc.devRef .tc main_v61) = a) (hs : W9 m ρ c (Proc.devRef .tc main_v14) = s)
    (hw : W9 m ρ c (Proc.devRef .tc main_arg9) = w) (hb : W9 m ρ c (Proc.devRef .tc main_v62) = b) :
    W10 m ρ c (Proc.devRef .tc main_v63) = linear a s w b := by
  subst ha hs hw hb
  exact (W10_arr m ρ c 4).trans (Region4.final (V9 m ρ) c)

/-! ## The result -/

/-- The result buffer ends holding the network of the argument arrays. -/
theorem result (c : Dev nD) :
    W10 m ρ c (Proc.devRef .tc main_v63)
      = net (agg (m ((c : Thread nD τ).loc main_arg1)) (m ((c : Thread nD τ).loc main_arg2))) (invDeg (m ((c : Thread nD τ).loc main_arg2))) (invDeg (m ((c : Thread nD τ).loc main_arg1)))
          (m ((c : Thread nD τ).loc main_arg0)) (m ((c : Thread nD τ).loc main_arg3)) (rowOf (m ((c : Thread nD τ).loc main_arg4))) (m ((c : Thread nD τ).loc main_arg5)) (rowOf (m ((c : Thread nD τ).loc main_arg6)))
          (m ((c : Thread nD τ).loc main_arg7)) (rowOf (m ((c : Thread nD τ).loc main_arg8))) (m ((c : Thread nD τ).loc main_arg9)) (rowOf (m ((c : Thread nD τ).loc main_arg10))) :=
  out4_of m ρ c _ _ _ _
    (agg4_of m ρ c _ _ _ (W8_arg1 m ρ c) (W8_arg2 m ρ c)
      (out3_of m ρ c _ _ _ _ _
        (agg3_of m ρ c _ _ _ (W6_arg1 m ρ c) (W6_arg2 m ρ c)
          (out2_of m ρ c _ _ _ _ _
            (agg2_of m ρ c _ _ _ (W4_arg1 m ρ c) (W4_arg2 m ρ c)
              (out1_of m ρ c _ _ _ _ _
                (agg1_of m ρ c _ _ _ (W2_arg1 m ρ c) (W2_arg2 m ρ c)
                  (out0_of m ρ c _ _ (W1_arg0 m ρ c) (W1_v10 m ρ c)))
                (W3_v14 m ρ c) (W3_v10 m ρ c) (W3_arg3 m ρ c) (row1_of m ρ c _ (W2_arg4 m ρ c))))
            (W5_v14 m ρ c) (W5_v10 m ρ c) (W5_arg5 m ρ c) (row2_of m ρ c _ (W4_arg6 m ρ c))))
        (W7_v14 m ρ c) (W7_v10 m ρ c) (W7_arg7 m ρ c) (row3_of m ρ c _ (W6_arg8 m ρ c))))
    (W9_v14 m ρ c) (W9_arg9 m ρ c) (row4_of m ρ c _ (W8_arg10 m ρ c))

/-- The run: every weakly fair execution terminates without a fault, the result buffer holding the network of
    the argument arrays and the arguments as launched. -/
theorem run : θ_run (defs (F := Ideal)) (onTc (τ := τ) (main (F := Ideal))) ⟨m, fun _ => 0, ρ⟩ (fun r => ∀ c : Dev nD,
      r.2.mem ((c.tc : Thread nD τ).loc main_v63)
        = net (agg (m ((c : Thread nD τ).loc main_arg1)) (m ((c : Thread nD τ).loc main_arg2))) (invDeg (m ((c : Thread nD τ).loc main_arg2))) (invDeg (m ((c : Thread nD τ).loc main_arg1)))
          (m ((c : Thread nD τ).loc main_arg0)) (m ((c : Thread nD τ).loc main_arg3)) (rowOf (m ((c : Thread nD τ).loc main_arg4))) (m ((c : Thread nD τ).loc main_arg5)) (rowOf (m ((c : Thread nD τ).loc main_arg6)))
          (m ((c : Thread nD τ).loc main_arg7)) (rowOf (m ((c : Thread nD τ).loc main_arg8))) (m ((c : Thread nD τ).loc main_arg9)) (rowOf (m ((c : Thread nD τ).loc main_arg10)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result m ρ c), (h c).2⟩) (Cert.Gcn.KernelRun.run_main (F := Ideal) m ρ)

end Cert.Gcn.Ker

end
-- ==== Proof.LibBcast.lean ====
/-
  A host broadcast read at an entry, for the shapes a bias row and a per-row factor go through.

  A vector of `a` numbers placed as an `a × 1` column holds, at (p, u), the vector's entry p; a column spread over `b`
  columns holds, at (p, q), the column's entry (p, 0); a vector of `b` numbers placed as a `1 × b` row holds, at (u, q),
  the vector's entry q; a row spread over `a` rows holds, at (p, q), the row's entry (0, q); and a scalar spread over
  any shape holds that scalar everywhere. Each is the rule that a broadcast reads its operand at the named axes'
  coordinates, with 0 on the operand's unit axes.
-/
import Idealize.ShloMosaic.Lib.Pipeline.Value
import Idealize.ShloMosaic.Lib.ValueIdx

namespace Cert.LibBcast

open Idealize.ShloMosaic Idealize.ShloMosaic.ValueIdx

variable {α : Type}

/-- An `[a]` vector placed along axis 0 of `[a, 1]` reads, at `(p, u)`, the vector at `p`. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- An `[a, 1]` column spread over `[a, b]` reads, at `(p, q)`, the column at `(p, 0)`. -/
theorem bcast_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A `[b]` vector placed along axis 1 of `[1, b]` reads, at `(u, q)`, the vector at `q`. -/
theorem bcast_b_1b_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A `[1, b]` row spread over `[a, b]` reads, at `(p, q)`, the row at `(0, q)`. -/
theorem bcast_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- A scalar spread over any shape reads that scalar everywhere. -/
theorem bcast_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Cert.LibBcast
-- ==== Proof.LibDot.lean ====
/-
  A host matrix product with one contracted axis, read at one entry.

  Over the extended reals the host's product of an A by K matrix and a K by B matrix at entry (p, q) is the sum over k
  of l (p, k) r (k, q): there is no accumulator, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibDot

open Idealize.ShloMosaic Idealize.ShloMosaic.ValueIdx

/-- Entry (p, q) of the host's plain matrix product is the sum over the contracted axis. -/
theorem dotGeneral_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    Host.dotGeneral (F := Ideal) d prec l r (ix2 p q) = ∑ k : Fin K, l (ix2 p k) * r (ix2 k q) := by
  show FloatOps.dotGeneral d prec .single l r (ix2 p q) = _
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibDot

end
-- ==== Proof.LibGraphConvHost.lean ====
/-
  One graph-convolution layer written with whole-array host operations, as an array, over the extended reals;
  generic in the extents.

  The host program scales the rows of the aggregated features by a one-column factor spread over the columns,
  multiplies by the weights with one contracted axis, adds the bias (a vector laid along a unit row, then spread
  over all rows), and for a hidden layer takes the maximum with a zero array and scales the rows by a second
  one-column factor. As arrays these are `Cert.Gcn.scaleRows`, `Cert.Gcn.linear` and `Cert.Gcn.hidden`.
-/
import Idealize.ShloMosaic.PureOps.Ideal.Laws
import Idealize.ShloMosaic.Lib.ValueIdx
import Idealize.ShloMosaic.Lib.Pipeline.Value
import proofs.«116706_j21328807592611_1_alg».proof.Proof.LibBcast
import proofs.«116706_j21328807592611_1_alg».proof.Proof.LibDot
import proofs.«116706_j21328807592611_1_alg».proof.Proof.Spec

noncomputable section

namespace Cert.LibGraphConvHost

open Idealize.ShloMosaic Idealize.ShloMosaic.ValueIdx Cert.Gcn

/-- An array times a one-column array spread over its columns: each row scaled by its own factor. -/
theorem host_scale {A B : ℕ} (h : (⟨2, ![A, 1]⟩ : Shape).BroadcastsInDim ⟨2, ![A, B]⟩ ![0, 1])
    (x : FVec Ideal (⟨2, ![A, B]⟩ : Shape) .f32) (s : FVec Ideal (⟨2, ![A, 1]⟩ : Shape) .f32) :
    mulf x (broadcastInDim (⟨2, ![A, B]⟩ : Shape) ![0, 1] h s) = scaleRows x s := by
  funext i
  obtain ⟨p, q, rfl⟩ : ∃ (p : Fin A) (q : Fin B), i = ix2 p q := ⟨i 0, i 1, eq_ix2 i⟩
  show x (ix2 p q) * broadcastInDim (⟨2, ![A, B]⟩ : Shape) ![0, 1] h s (ix2 p q) = x (ix2 p q) * s (ix2 p (0 : Fin 1))
  rw [Cert.LibBcast.bcast_a1_ab_apply]

/-- A vector laid along a unit row is the one-row array of the vector. -/
theorem host_row {B : ℕ} (h : (⟨1, ![B]⟩ : Shape).BroadcastsInDim ⟨2, ![1, B]⟩ ![1])
    (b : FVec Ideal (⟨1, ![B]⟩ : Shape) .f32) :
    broadcastInDim (⟨2, ![1, B]⟩ : Shape) ![1] h b = rowOf b := by
  funext i
  obtain ⟨u, q, rfl⟩ : ∃ (u : Fin 1) (q : Fin B), i = ix2 u q := ⟨i 0, i 1, eq_ix2 i⟩
  exact Cert.LibBcast.bcast_b_1b_apply b h u q

/-- The linear layer as host operations. -/
theorem host_linear {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h1 : (⟨2, ![A, 1]⟩ : Shape).BroadcastsInDim ⟨2, ![A, K]⟩ ![0, 1])
    (h2 : (⟨2, ![1, B]⟩ : Shape).BroadcastsInDim ⟨2, ![A, B]⟩ ![0, 1])
    (h2' : (⟨1, ![B]⟩ : Shape).BroadcastsInDim ⟨2, ![1, B]⟩ ![1])
    (a : FVec Ideal (⟨2, ![A, K]⟩ : Shape) .f32) (s : FVec Ideal (⟨2, ![A, 1]⟩ : Shape) .f32)
    (w : FVec Ideal (⟨2, ![K, B]⟩ : Shape) .f32) (b : FVec Ideal (⟨1, ![B]⟩ : Shape) .f32) :
    addf (Host.dotGeneral (F := Ideal) d none (mulf a (broadcastInDim (⟨2, ![A, K]⟩ : Shape) ![0, 1] h1 s)) w)
        (broadcastInDim (⟨2, ![A, B]⟩ : Shape) ![0, 1] h2 (broadcastInDim (⟨2, ![1, B]⟩ : Shape) ![1] h2' b))
      = linear a s w (rowOf b) := by
  rw [host_row]
  generalize rowOf b = b
  funext i
  obtain ⟨p, q, rfl⟩ : ∃ (p : Fin A) (q : Fin B), i = ix2 p q := ⟨i 0, i 1, eq_ix2 i⟩
  show Host.dotGeneral (F := Ideal) d none (mulf a (broadcastInDim (⟨2, ![A, K]⟩ : Shape) ![0, 1] h1 s)) w (ix2 p q)
      + broadcastInDim (⟨2, ![A, B]⟩ : Shape) ![0, 1] h2 b (ix2 p q)
    = Cert.Layer.prod (scaleRows a s) w (ix2 p q) + b (ix2 (0 : Fin 1) q)
  rw [Cert.LibDot.dotGeneral_ix2 d hr hs hl0 hl1 hr0 hr1, Cert.LibBcast.bcast_1b_ab_apply, host_scale]
  rfl

/-- A hidden layer as host operations: the linear layer, the maximum with a zero array, the rows scaled again. -/
theorem host_hidden {A K B : ℕ}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (h1 : (⟨2, ![A, 1]⟩ : Shape).BroadcastsInDim ⟨2, ![A, K]⟩ ![0, 1])
    (h2 : (⟨2, ![1, B]⟩ : Shape).BroadcastsInDim ⟨2, ![A, B]⟩ ![0, 1])
    (h0 : (⟨0, ![]⟩ : Shape).BroadcastsInDim ⟨2, ![A, B]⟩ ![])
    (h3 : (⟨2, ![A, 1]⟩ : Shape).BroadcastsInDim ⟨2, ![A, B]⟩ ![0, 1])
    (h2' : (⟨1, ![B]⟩ : Shape).BroadcastsInDim ⟨2, ![1, B]⟩ ![1])
    (a : FVec Ideal (⟨2, ![A, K]⟩ : Shape) .f32) (s t : FVec Ideal (⟨2, ![A, 1]⟩ : Shape) .f32)
    (w : FVec Ideal (⟨2, ![K, B]⟩ : Shape) .f32) (b : FVec Ideal (⟨1, ![B]⟩ : Shape) .f32) :
    mulf (maximumf
          (addf (Host.dotGeneral (F := Ideal) d none (mulf a (broadcastInDim (⟨2, ![A, K]⟩ : Shape) ![0, 1] h1 s)) w)
            (broadcastInDim (⟨2, ![A, B]⟩ : Shape) ![0, 1] h2 (broadcastInDim (⟨2, ![1, B]⟩ : Shape) ![1] h2' b)))
          (broadcastInDim (⟨2, ![A, B]⟩ : Shape) ![] h0 (constant (F := Ideal) (⟨0, ![]⟩ : Shape) .f32 0x00000000#32)))
        (broadcastInDim (⟨2, ![A, B]⟩ : Shape) ![0, 1] h3 t)
      = hidden a s t w (rowOf b) := by
  rw [host_linear d hr hs hl0 hl1 hr0 hr1 h1 h2 h2']
  generalize rowOf b = b
  funext i
  obtain ⟨p, q, rfl⟩ : ∃ (p : Fin A) (q : Fin B), i = ix2 p q := ⟨i 0, i 1, eq_ix2 i⟩
  show max (linear a s w b (ix2 p q))
        (broadcastInDim (⟨2, ![A, B]⟩ : Shape) ![] h0 (constant (F := Ideal) (⟨0, ![]⟩ : Shape) .f32 0x00000000#32) (ix2 p q))
      * broadcastInDim (⟨2, ![A, B]⟩ : Shape) ![0, 1] h3 t (ix2 p q)
    = max (linear a s w b (ix2 p q)) 0 * t (ix2 p (0 : Fin 1))
  rw [Cert.LibBcast.bcast_scalar_apply, Cert.LibBcast.bcast_a1_ab_apply]
  show max (linear a s w b (ix2 p q)) (Ideal.ofBits .f32 0x00000000#32) * t (ix2 p (0 : Fin 1)) = _
  rw [Ideal.ofBits_zero_f32]

end Cert.LibGraphConvHost

end
-- ==== Proof.RefValue.lean ====
/-
  The reference program's result is the network.

  Stage by stage: the first stage scales the feature rows by the out-degree factor; each hidden layer is the linear
  layer of the aggregated rows, clamped below at zero, with rows scaled for the next aggregation; the last layer is
  the linear layer alone. The aggregation (a gather along the edges, then a scatter-add) and the two degree factors
  are the same host operations at every layer, so they are carried as the functions `agg`, `val_main_v14` and
  `val_main_v10` of the edge arrays and never opened.
-/
import proofs.«116706_j21328807592611_1_alg».proof.Proof.Gen.ReferenceIdeal.Read
import proofs.«116706_j21328807592611_1_alg».proof.Proof.LibGraphConvHost

noncomputable section

namespace Cert.Gcn.Ref

open Idealize.ShloMosaic Idealize.ShloMosaic.ValueIdx
open Cert.ReferenceIdeal Cert.ReferenceIdeal.Gen Cert.ReferenceIdeal.Read Cert.Gcn

/-- The aggregation as the reference writes it: the rows gathered at the edges' sources (a negative source index
    wrapped once), scatter-added into a zero array at the edges' destinations. -/
def agg (x1 x2 : IVec S600000 32) (hs : FVec Ideal S50000x128 .f32) : FVec Ideal S50000x128 .f32 :=
  Host.scatterAdd (F := Ideal) (φ := .f32) scatter_S50000x128_S600000x1_S600000x128_1_0_0_1 (val_main_v24 (F := Ideal)) (val_main_v25 (F := Ideal) x2)
    (Host.gather gather_S50000x128_S600000x1_S600000x128_1_0_n_n_0_1_1128 hs (val_main_v22 (F := Ideal) x1))

/-- The feature rows scaled by the out-degree factor. -/
theorem scale0 (x0 : (⟨S50000x128, .f32⟩ : BufTy).Contents (Elt Ideal)) (x1 : (⟨S600000, .i32⟩ : BufTy).Contents (Elt Ideal)) :
    val_main_v16 (F := Ideal) x0 x1 = scaleRows x0 (val_main_v10 (F := Ideal) x1) := by
  unfold val_main_v16 val_main_v15
  exact Cert.LibGraphConvHost.host_scale _ x0 _

theorem agg1 (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x10, .f32⟩ : BufTy).Contents (Elt Ideal)) (x10 : (⟨S10, .f32⟩ : BufTy).Contents (Elt Ideal)) :
    val_main_v26 (F := Ideal) x0 x1 x2 = agg x1 x2 (val_main_v16 (F := Ideal) x0 x1) := rfl

theorem agg2 (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x10, .f32⟩ : BufTy).Contents (Elt Ideal)) (x10 : (⟨S10, .f32⟩ : BufTy).Contents (Elt Ideal)) :
    val_main_v45 (F := Ideal) x0 x1 x2 x3 x4 = agg x1 x2 (val_main_v35 (F := Ideal) x0 x1 x2 x3 x4) := rfl

theorem agg3 (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x10, .f32⟩ : BufTy).Contents (Elt Ideal)) (x10 : (⟨S10, .f32⟩ : BufTy).Contents (Elt Ideal)) :
    val_main_v64 (F := Ideal) x0 x1 x2 x3 x4 x5 x6 = agg x1 x2 (val_main_v54 (F := Ideal) x0 x1 x2 x3 x4 x5 x6) := rfl

theorem agg4 (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x10, .f32⟩ : BufTy).Contents (Elt Ideal)) (x10 : (⟨S10, .f32⟩ : BufTy).Contents (Elt Ideal)) :
    val_main_v83 (F := Ideal) x0 x1 x2 x3 x4 x5 x6 x7 x8 = agg x1 x2 (val_main_v73 (F := Ideal) x0 x1 x2 x3 x4 x5 x6 x7 x8) := rfl

/-- The first hidden layer. -/
theorem layer1 (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x10, .f32⟩ : BufTy).Contents (Elt Ideal)) (x10 : (⟨S10, .f32⟩ : BufTy).Contents (Elt Ideal)) :
    val_main_v35 (F := Ideal) x0 x1 x2 x3 x4
      = hidden (val_main_v26 (F := Ideal) x0 x1 x2) (val_main_v14 (F := Ideal) x2) (val_main_v10 (F := Ideal) x1) x3 (rowOf x4) := by
  unfold val_main_v35 val_main_v34 val_main_v33 val_main_call0_v0 val_main_call0_cst val_main_v32 val_main_v31 val_main_v30 val_main_v29 val_main_v28 val_main_v27
  exact Cert.LibGraphConvHost.host_hidden dot_S50000x128_S128x128_S50000x128_1_0_0_1_n_n rfl rfl
    lhs_main_v29_0 lhs_main_v29_1 rhs_main_v29_0 rhs_main_v29_1 _ _ _ _ _ _ _ _ _ _

/-- The second hidden layer. -/
theorem layer2 (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x10, .f32⟩ : BufTy).Contents (Elt Ideal)) (x10 : (⟨S10, .f32⟩ : BufTy).Contents (Elt Ideal)) :
    val_main_v54 (F := Ideal) x0 x1 x2 x3 x4 x5 x6
      = hidden (val_main_v45 (F := Ideal) x0 x1 x2 x3 x4) (val_main_v14 (F := Ideal) x2) (val_main_v10 (F := Ideal) x1) x5 (rowOf x6) := by
  unfold val_main_v54 val_main_v53 val_main_v52 val_main_call1_v0 val_main_call1_cst val_main_v51 val_main_v50 val_main_v49 val_main_v48 val_main_v47 val_main_v46
  exact Cert.LibGraphConvHost.host_hidden dot_S50000x128_S128x128_S50000x128_1_0_0_1_n_n rfl rfl
    lhs_main_v29_0 lhs_main_v29_1 rhs_main_v29_0 rhs_main_v29_1 _ _ _ _ _ _ _ _ _ _

/-- The third hidden layer. -/
theorem layer3 (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x10, .f32⟩ : BufTy).Contents (Elt Ideal)) (x10 : (⟨S10, .f32⟩ : BufTy).Contents (Elt Ideal)) :
    val_main_v73 (F := Ideal) x0 x1 x2 x3 x4 x5 x6 x7 x8
      = hidden (val_main_v64 (F := Ideal) x0 x1 x2 x3 x4 x5 x6) (val_main_v14 (F := Ideal) x2) (val_main_v10 (F := Ideal) x1) x7 (rowOf x8) := by
  unfold val_main_v73 val_main_v72 val_main_v71 val_main_call2_v0 val_main_call2_cst val_main_v70 val_main_v69 val_main_v68 val_main_v67 val_main_v66 val_main_v65
  exact Cert.LibGraphConvHost.host_hidden dot_S50000x128_S128x128_S50000x128_1_0_0_1_n_n rfl rfl
    lhs_main_v29_0 lhs_main_v29_1 rhs_main_v29_0 rhs_main_v29_1 _ _ _ _ _ _ _ _ _ _

/-- The last layer. -/
theorem layer4 (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x10, .f32⟩ : BufTy).Contents (Elt Ideal)) (x10 : (⟨S10, .f32⟩ : BufTy).Contents (Elt Ideal)) :
    val_main_v89 (F := Ideal) x0 x1 x2 x3 x4 x5 x6 x7 x8 x9 x10
      = linear (val_main_v83 (F := Ideal) x0 x1 x2 x3 x4 x5 x6 x7 x8) (val_main_v14 (F := Ideal) x2) x9 (rowOf x10) := by
  unfold val_main_v89 val_main_v88 val_main_v87 val_main_v86 val_main_v85 val_main_v84
  exact Cert.LibGraphConvHost.host_linear dot_S50000x128_S128x10_S50000x10_1_0_0_1_n_n rfl rfl
    lhs_main_v86_0 lhs_main_v86_1 rhs_main_v86_0 rhs_main_v86_1 _ _ _ _ _ _ _

/-- The reference's result is the network of its arguments. -/
theorem result (x0 : (⟨S50000x128, .f32⟩ : BufTy).Contents (Elt Ideal)) (x1 x2 : (⟨S600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x10, .f32⟩ : BufTy).Contents (Elt Ideal)) (x10 : (⟨S10, .f32⟩ : BufTy).Contents (Elt Ideal)) :
    val_main_v89 (F := Ideal) x0 x1 x2 x3 x4 x5 x6 x7 x8 x9 x10
      = net (agg x1 x2) (val_main_v14 (F := Ideal) x2) (val_main_v10 (F := Ideal) x1) x0
          x3 (rowOf x4) x5 (rowOf x6) x7 (rowOf x8) x9 (rowOf x10) := by
  rw [layer4 x0 x1 x2 x3 x4 x5 x6 x7 x8 x9 x10, agg4 x0 x1 x2 x3 x4 x5 x6 x7 x8 x9 x10, layer3 x0 x1 x2 x3 x4 x5 x6 x7 x8 x9 x10, agg3 x0 x1 x2 x3 x4 x5 x6 x7 x8 x9 x10, layer2 x0 x1 x2 x3 x4 x5 x6 x7 x8 x9 x10, agg2 x0 x1 x2 x3 x4 x5 x6 x7 x8 x9 x10,
    layer1 x0 x1 x2 x3 x4 x5 x6 x7 x8 x9 x10, agg1 x0 x1 x2 x3 x4 x5 x6 x7 x8 x9 x10, scale0 x0 x1]
  rfl

end Cert.Gcn.Ref

end
-- ==== Proof.lean ====
/-
  A four-layer graph convolution network: the kernel program against its plain reference, over the extended reals.

  Both programs compute, from the node features, the edge list and four weight matrices with their biases, the
  same network: the two degree factors (the reciprocal square roots of the clamped out- and in-degrees); the feature
  rows scaled by the out-degree factor; then four times an aggregation along the edges followed by a layer — scale the
  aggregated rows by the in-degree factor, multiply by the weights, add the bias, and for the three hidden layers clamp
  below at zero and scale the rows by the out-degree factor again. The kernel program runs the row scaling and the
  four layers as tiled kernels of 2000 rows per grid point, rounding the two factors of each product to a narrower
  float format first (which changes nothing over the extended reals); the reference writes them as whole-array
  operations. The degree factors and the aggregation are the same host operations in both programs.
  So both results are `Cert.Gcn.net` of the arguments, term by term the same sums: no algebraic law beyond
  that is used, and the precondition is not needed.
-/
import proofs.«116706_j21328807592611_1_alg».proof.Defs
import proofs.«116706_j21328807592611_1_alg».proof.Proof.Gen.Kernel
import proofs.«116706_j21328807592611_1_alg».proof.Proof.Gen.Kernel.Skeleton
import proofs.«116706_j21328807592611_1_alg».proof.Proof.Gen.Kernel.Launch
import proofs.«116706_j21328807592611_1_alg».proof.Proof.Gen.Kernel.Points
import proofs.«116706_j21328807592611_1_alg».proof.Proof.Gen.Kernel.Frame
import proofs.«116706_j21328807592611_1_alg».proof.Proof.Gen.KernelIdeal
import proofs.«116706_j21328807592611_1_alg».proof.Proof.Gen.KernelIdeal.Skeleton
import proofs.«116706_j21328807592611_1_alg».proof.Proof.Gen.KernelIdeal.Launch
import proofs.«116706_j21328807592611_1_alg».proof.Proof.Gen.KernelIdeal.Points
import proofs.«116706_j21328807592611_1_alg».proof.Proof.Gen.KernelIdeal.Frame
import proofs.«116706_j21328807592611_1_alg».proof.Proof.Gen.ReferenceIdeal
import proofs.«116706_j21328807592611_1_alg».proof.Proof.Gen.Pre_finite_inputs
import proofs.«116706_j21328807592611_1_alg».proof.Proof.Gen.ReferenceIdeal.Run
import proofs.«116706_j21328807592611_1_alg».proof.Proof.Gen.ReferenceIdeal.Read
import proofs.«116706_j21328807592611_1_alg».proof.Proof.KernelValue
import proofs.«116706_j21328807592611_1_alg».proof.Proof.RefValue
import Idealize.ShloMosaic.Adequacy
import Idealize.ShloMosaic.Init

noncomputable section

namespace Cert.Proof

open Idealize.ShloMosaic Idealize.ShloMosaic.TcCoe Idealize.SL.Sem

/-! ## The two programs' shared host operations are the same functions -/

/-- The aggregation is written with the same operations in both programs. -/
theorem agg_eq (x1 x2 : IVec Cert.KernelIdeal.S600000 32) : Cert.Gcn.Ref.agg x1 x2 = Cert.Gcn.Ker.agg x1 x2 := rfl

/-- So is the out-degree factor. -/
theorem outDeg_eq (x1 : IVec Cert.KernelIdeal.S600000 32) :
    Cert.ReferenceIdeal.Read.val_main_v10 (F := Ideal) x1 = Cert.Gcn.Ker.invDeg x1 := rfl

/-- So is the in-degree factor. -/
theorem inDeg_eq (x2 : IVec Cert.KernelIdeal.S600000 32) :
    Cert.ReferenceIdeal.Read.val_main_v14 (F := Ideal) x2 = Cert.Gcn.Ker.invDeg x2 := rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the network of the arguments in their result buffers. -/
theorem algebraic : Cert.algebraic_KernelIdeal_ReferenceIdeal := by
  intro m ρ m' ρ' _ hagree
  refine ⟨_, Cert.Gcn.Ker.run m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v89_eq, Cert.Gcn.Ref.result, e0, e1, e2, e3, e4, e5, e6, e7, e8, e9, e10,
    agg_eq, outDeg_eq, inDeg_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
